-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S128 : Shape := ⟨1, ![128]⟩
abbrev S128x128 : Shape := ⟨2, ![128, 128]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S320000x128 .f32) (main_arg1 : IVec S320000 32) (main_arg2 : FVec F S128x256 .f32) (main_arg3 : FVec F S256 .f32) (main_arg4 : FVec F S128 .f32) (main_arg5 : FVec F S128 .f32) (main_arg6 : FVec F S128x128 .f32) (main_arg7 : FVec F S128 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S128 : Shape := ⟨1, ![128]⟩
abbrev S128x128 : Shape := ⟨2, ![128, 128]⟩
abbrev S50x1x6400 : Shape := ⟨3, ![50, 1, 6400]⟩
abbrev S_ : Shape := ⟨0, ![]⟩
abbrev S1x256 : Shape := ⟨2, ![1, 256]⟩
abbrev S1x128 : Shape := ⟨2, ![1, 128]⟩
abbrev S64x128 : Shape := ⟨2, ![64, 128]⟩
abbrev S6400x128 : Shape := ⟨2, ![6400, 128]⟩
abbrev S1x1x6400 : Shape := ⟨3, ![1, 1, 6400]⟩
abbrev S6400x256 : Shape := ⟨2, ![6400, 256]⟩
abbrev S6400 : Shape := ⟨1, ![6400]⟩
abbrev S64x6400 : Shape := ⟨2, ![64, 6400]⟩
abbrev S1x6400 : Shape := ⟨2, ![1, 6400]⟩

abbrev nBuf : Space → Nat
  | .hbm => 20
  | .vmem => 12
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x256, .f32⟩
  | .hbm, ⟨3, _⟩ => ⟨S256, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50x1x6400, .i32⟩
  | .hbm, ⟨9, _⟩ => ⟨S_, .f32⟩
  | .hbm, ⟨10, _⟩ => ⟨S128x256, .f32⟩
  | .hbm, ⟨11, _⟩ => ⟨S128x256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S64x128, .f32⟩
  | .local _ .vmem, ⟨0, _⟩ => ⟨S6400x128, .f32⟩
  | .local _ .vmem, ⟨1, _⟩ => ⟨S6400x128, .f32⟩
  | .local _ .vmem, ⟨2, _⟩ => ⟨S1x1x6400, .i32⟩
  | .local _ .vmem, ⟨3, _⟩ => ⟨S1x1x6400, .i32⟩
  | .local _ .vmem, ⟨4, _⟩ => ⟨S128x256, .f32⟩
  | .local _ .vmem, ⟨5, _⟩ => ⟨S1x256, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S64x128, .f32⟩
  | .local _ .vmem, ⟨11, _⟩ => ⟨S64x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_call0_cst_0 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S320000_S50x1x6400 : S320000.ShapeCasts S50x1x6400
  bcast_S_S128x256 : S_.BroadcastsInDim S128x256 (![] : Fin 0 → Fin S128x256.rank)
  bcast_S_S256 : S_.BroadcastsInDim S256 (![] : Fin 0 → Fin S256.rank)
  shapeCasts_S256_S1x256 : S256.ShapeCasts S1x256
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  slices_S6400x256_o0_0_S6400x128 : S6400x256.Slices ![0, 0] S6400x128
  slices_S6400x256_o0_128_S6400x128 : S6400x256.Slices ![0, 128] S6400x128
  inb_S1x1x6400_S1x1x6400_0_0_0 : ∀ a, (![0, 0, 0] : Fin 3 → Nat) a + S1x1x6400.size a ≤ S1x1x6400.size a
  h_S1x1x6400 : 0 < S1x1x6400.numel
  shapeCasts_S1x1x6400_S6400 : S1x1x6400.ShapeCasts S6400
  iota_S64x6400_d0_w32 : S64x6400.Iotas .tc 32 [0]
  shapeCasts_S6400_S1x6400 : S6400.ShapeCasts S1x6400
  broadcasts_S1x6400_S64x6400 : S1x6400.Broadcasts S64x6400
  natLt_1_32 : 1 < 32
  reduces_S64x128_S128 : S64x128.Reduces [0] S128
  broadcasts_S1x128_S64x128 : S1x128.Broadcasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  dot_S6400x128_S128x256_S6400x256_1_0_0_1_n_n_wf : DotDims.WF S6400x128 S128x256 S6400x256 [1] [0] [0] [1] [] []
  dot_S64x6400_S6400x128_S64x128_1_0_0_1_n_n_wf : DotDims.WF S64x6400 S6400x128 S64x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S320000x128.size a
  hwx0_0 : ∀ i : grid0.Coords, EltTy.bits .f32 = 32 ∨ (Rect.block (s := S320000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x6400.size a ≤ S50x1x6400.size a
  hwx0_1 : ∀ i : grid0.Coords, EltTy.bits .i32 = 32 ∨ (Rect.block (s := S50x1x6400) S1x1x6400.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)

variable [Facts₀]

def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S64x6400_S6400x128_S64x128_1_0_0_1_n_n : DotDims S64x6400 S6400x128 S64x128 where
  lhsContracting := [1]
  rhsContracting := [0]
  lhsNonContracting := [0]
  rhsNonContracting := [1]
  lhsBatch := []
  rhsBatch := []
  wf := dot_S64x6400_S6400x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S64x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S128 : Shape := ⟨1, ![128]⟩
abbrev S128x128 : Shape := ⟨2, ![128, 128]⟩
abbrev S320000x256 : Shape := ⟨2, ![320000, 256]⟩
abbrev S1x256 : Shape := ⟨2, ![1, 256]⟩
abbrev S_ : Shape := ⟨0, ![]⟩
abbrev S64x128 : Shape := ⟨2, ![64, 128]⟩
abbrev S320000x1 : Shape := ⟨2, ![320000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x256, .f32⟩
  | .hbm, ⟨3, _⟩ => ⟨S256, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S320000x256, .f32⟩
  | .hbm, ⟨9, _⟩ => ⟨S1x256, .f32⟩
  | .hbm, ⟨10, _⟩ => ⟨S320000x256, .f32⟩
  | .hbm, ⟨11, _⟩ => ⟨S320000x256, .f32⟩
  | .hbm, ⟨12, _⟩ => ⟨S320000x128, .f32⟩
  | .hbm, ⟨13, _⟩ => ⟨S320000x128, .f32⟩
  | .hbm, ⟨14, _⟩ => ⟨S320000x128, .f32⟩
  | .hbm, ⟨15, _⟩ => ⟨S320000x128, .f32⟩
  | .hbm, ⟨16, _⟩ => ⟨S_, .f32⟩
  | .hbm, ⟨17, _⟩ => ⟨S320000x128, .f32⟩
  | .hbm, ⟨18, _⟩ => ⟨S320000x128, .f32⟩
  | .hbm, ⟨19, _⟩ => ⟨S_, .f32⟩
  | .hbm, ⟨20, _⟩ => ⟨S320000x128, .f32⟩
  | .hbm, ⟨21, _⟩ => ⟨S320000x128, .f32⟩
  | .hbm, ⟨22, _⟩ => ⟨S320000x128, .f32⟩
  | .hbm, ⟨23, _⟩ => ⟨S_, .f32⟩
  | .hbm, ⟨24, _⟩ => ⟨S64x128, .f32⟩
  | .hbm, ⟨25, _⟩ => ⟨S320000x1, .i32⟩
  | .hbm, ⟨26, _⟩ => ⟨S64x128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S64x128, .f32⟩
  | .hbm, ⟨40, _⟩ => ⟨S64x128, .f32⟩
  | .hbm, ⟨41, _⟩ => ⟨S64x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S64x128, .f32⟩
  | .hbm, ⟨57, _⟩ => ⟨S64x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S64x128, .f32⟩
  | .hbm, ⟨64, _⟩ => ⟨S64x128, .f32⟩
  | .hbm, ⟨65, _⟩ => ⟨S1x128, .f32⟩
  | .hbm, ⟨66, _⟩ => ⟨S64x128, .f32⟩
  | .hbm, ⟨67, _⟩ => ⟨S64x128, .f32⟩
  | .hbm, ⟨68, _⟩ => ⟨S1x128, .f32⟩
  | .hbm, ⟨69, _⟩ => ⟨S64x128, .f32⟩
  | .hbm, ⟨70, _⟩ => ⟨S64x128, .f32⟩
  | .hbm, ⟨71, _⟩ => ⟨S64x128, .f32⟩
  | .hbm, ⟨72, _⟩ => ⟨S1x128, .f32⟩
  | .hbm, ⟨73, _⟩ => ⟨S64x128, .f32⟩
  | .hbm, ⟨74, _⟩ => ⟨S64x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  slices_S320000x256_S320000x128_0_0 : S320000x256.Slices ![0, 0] S320000x128
  slices_S320000x256_S320000x128_0_128 : S320000x256.Slices ![0, 128] S320000x128
  bcast_S_S320000x128 : S_.BroadcastsInDim S320000x128 (![] : Fin 0 → Fin S320000x128.rank)
  bcast_S_S64x128 : S_.BroadcastsInDim S64x128 (![] : Fin 0 → Fin S64x128.rank)
  bcast_S320000_S320000x1_0 : S320000.BroadcastsInDim S320000x1 (![0] : Fin 1 → Fin S320000x1.rank)
  reducesTo_S64x128_S128_d0 : S64x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S64x128_0_1 : S1x128.BroadcastsInDim S64x128 (![0, 1] : Fin 2 → Fin S64x128.rank)
  dot_S320000x128_S128x256_S320000x256_1_0_0_1_n_n_wf : DotDims.WF S320000x128 S128x256 S320000x256 [1] [0] [0] [1] [] []
  scatter_S64x128_S320000x1_S320000x128_1_0_0_1_wf : ScatterDims.WF S64x128 S320000x1 S320000x128 [1] [0] [0] 1
  dot_S64x128_S128x128_S64x128_1_0_0_1_n_n_wf : DotDims.WF S64x128 S128x128 S64x128 [1] [0] [0] [1] [] []

variable [Facts₀]

def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf
def scatter_S64x128_S320000x1_S320000x128_1_0_0_1 : ScatterDims S64x128 S320000x1 S320000x128 where
  updateWindowDims := [1]
  insertedWindowDims := [0]
  scatterDimsToOperandDims := [0]
  indexVectorDim := 1
  wf := scatter_S64x128_S320000x1_S320000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KPieces.lean ====
/-
  What one grid step leaves behind, as values. The carried accumulator after a step is the step's accumulation
  term of the step's input blocks over what the accumulator held before (zeros at the first step, which stores them
  first); the last step's output block is the normalisation-and-projection term of that accumulator and the four
  parameter blocks.
-/
import proofs.«152796_g7069516169370_cont_9to1c4b_214_5_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.DeepSets.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the accumulator ends at the accumulation term over what it held. -/
theorem sout_B (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S6400x128 .f32) (x1 : Vec F S1x1x6400 .i32) (x2 : Vec F S128x256 .f32) (x3 : Vec F S1x256 .f32) (x4 : Vec F S1x128 .f32) (x5 : Vec F S1x128 .f32) (x6 : Vec F S128x128 .f32) (x7 : Vec F S1x128 .f32) (xs0 : Vec F S64x128 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 x7 xs0 = k0_pay3 x0 x2 x3 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg10.read_unread, View.ld_unit_zero (S := S6400x128) hz2, View.ld_unit_zero (S := S128x256) hz2, View.ld_unit_zero (S := S1x256) hz2, View.ld_unit_zero (S := S1x128) hz2, View.ld_unit_zero (S := S128x128) hz2, View.ld_unit_zero (S := S64x128) hz2, View.ld_unit_zero (S := S1x1x6400) hz3]

/-- The last step: the accumulator likewise. -/
theorem sout_C (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S6400x128 .f32) (x1 : Vec F S1x1x6400 .i32) (x2 : Vec F S128x256 .f32) (x3 : Vec F S1x256 .f32) (x4 : Vec F S1x128 .f32) (x5 : Vec F S1x128 .f32) (x6 : Vec F S128x128 .f32) (x7 : Vec F S1x128 .f32) (xs0 : Vec F S64x128 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 x7 xs0 = k0_pay3 x0 x2 x3 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg10.read_unread, View.ld_unit_zero (S := S6400x128) hz2, View.ld_unit_zero (S := S128x256) hz2, View.ld_unit_zero (S := S1x256) hz2, View.ld_unit_zero (S := S1x128) hz2, View.ld_unit_zero (S := S128x128) hz2, View.ld_unit_zero (S := S64x128) hz2, View.ld_unit_zero (S := S1x1x6400) hz3]

/-- The last step's output block: the final term of the accumulator just stored and the parameter blocks. -/
theorem out_C (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S6400x128 .f32) (x1 : Vec F S1x1x6400 .i32) (x2 : Vec F S128x256 .f32) (x3 : Vec F S1x256 .f32) (x4 : Vec F S1x128 .f32) (x5 : Vec F S1x128 .f32) (x6 : Vec F S128x128 .f32) (x7 : Vec F S1x128 .f32) (xs0 : Vec F S64x128 .f32) :
    out0_C_8 c i arg1 harg1 arg2 harg2 arg3 harg3 arg4 harg4 arg5 harg5 arg6 harg6 arg7 harg7 arg8 harg8 arg9 harg9 arg10 harg10 hc0 hc1 x0 x1 x2 x3 x4 x5 x6 x7 xs0 = k0_pay1 (k0_pay3 x0 x2 x3 x1 xs0) x4 x5 x6 x7 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz2, View.readCov_unit_zero (S := S64x128) _ hz2]
  simp only [View.readAt_eq_ld, harg1.read_unread, harg2.read_unread, harg3.read_unread, harg4.read_unread, harg5.read_unread, harg6.read_unread, harg7.read_unread, harg8.read_unread, harg10.read_unread, View.ld_unit_zero (S := S6400x128) hz2, View.ld_unit_zero (S := S128x256) hz2, View.ld_unit_zero (S := S1x256) hz2, View.ld_unit_zero (S := S1x128) hz2, View.ld_unit_zero (S := S128x128) hz2, View.ld_unit_zero (S := S64x128) hz2, View.ld_unit_zero (S := S1x1x6400) hz3]

/-- The first step: zeros are stored, read back, and the accumulation term is taken over them. -/
theorem sout_A (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S6400x128 .f32) (x1 : Vec F S1x1x6400 .i32) (x2 : Vec F S128x256 .f32) (x3 : Vec F S1x256 .f32) (x4 : Vec F S1x128 .f32) (x5 : Vec F S1x128 .f32) (x6 : Vec F S128x128 .f32) (x7 : Vec F S1x128 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 x7 = k0_pay3 x0 x2 x3 x1 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6 x7)]
  unfold kernelRun0_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread, harg5.read_unread, harg6.read_unread, harg7.read_unread, harg8.read_unread, harg10.read_unread, View.ld_unit_zero (S := S6400x128) hz2, View.ld_unit_zero (S := S128x256) hz2, View.ld_unit_zero (S := S1x256) hz2, View.ld_unit_zero (S := S1x128) hz2, View.ld_unit_zero (S := S128x128) hz2, View.ld_unit_zero (S := S64x128) hz2, View.ld_unit_zero (S := S1x1x6400) hz3]

end Cert.DeepSets.Kernel
end
-- ==== Proof.Spec.lean ====
/-
  The two computations, entry by entry, over the extended reals.

  An edge `j` has features `feat j`; a linear layer of 256 outputs is followed by a gate: the first 128 outputs
  times the logistic function of the last 128. The gated rows are added per graph — edge `j` goes to graph `seg j`,
  an edge whose word is no graph number going nowhere —, the 64 pooled rows are normalised per column with the batch's
  own mean and variance, scaled, shifted, and sent through a second linear layer.

  One side (`…R`) divides by the square root and applies the logistic function to the linear layer as it is. The other
  side (`…K`) halves the weights and the bias first, uses `(a / 2) · (1 + tanh (g / 2))`, picks an edge's graph with a
  one-hot factor tile by tile (50 tiles of 6400 edges), and multiplies by the reciprocal square root.
-/
import Idealize.ShloMosaic.PureOps.Ideal
import Idealize.ShloMosaic.Lib.ValueIdx

noncomputable section

namespace Cert.DeepSets.Spec

open Idealize.ShloMosaic Idealize.ShloMosaic.ValueIdx

/-- A rank-2 array read by its two coordinates. -/
def mat {a b : ℕ} {α : Type} (x : (⟨2, ![a, b]⟩ : Shape).Idx → α) (i : Fin a) (j : Fin b) : α := x (ix2 i j)
/-- A rank-1 array read by its coordinate. -/
def vec {a : ℕ} {α : Type} (x : (⟨1, ![a]⟩ : Shape).Idx → α) (i : Fin a) : α := x (ix1 i)
/-- A function of two coordinates as a rank-2 array. -/
def arr2 {a b : ℕ} {α : Type} (f : Fin a → Fin b → α) : (⟨2, ![a, b]⟩ : Shape).Idx → α := fun i => f (i 0) (i 1)

theorem arr2_apply {a b : ℕ} {α : Type} (f : Fin a → Fin b → α) (i : Fin a) (j : Fin b) : arr2 f (ix2 i j) = f i j := rfl

/-- Column `c` of the first half of the 256 outputs. -/
def lo (c : Fin 128) : Fin 256 := ⟨c.val, by omega⟩
/-- Column `c` of the second half of the 256 outputs. -/
def hi (c : Fin 128) : Fin 256 := ⟨c.val + 128, by omega⟩
/-- Edge `r` of tile `t`. -/
def row (t : Fin 50) (r : Fin 6400) : Fin 320000 := ⟨t.val * 6400 + r.val, by omega⟩

/-- The float words the programs share: 64, the variance's small shift, one half. -/
def c64 : EReal := Ideal.ofBits .f32 0x42800000#32
def eps : EReal := Ideal.ofBits .f32 0x3727C5AC#32
def half : EReal := Ideal.ofBits .f32 0x3F000000#32

section
variable (feat : Fin 320000 → Fin 128 → EReal) (seg : Fin 320000 → BitVec 32)
  (W1 : Fin 128 → Fin 256 → EReal) (b1 : Fin 256 → EReal) (gamma beta : Fin 128 → EReal)
  (W2 : Fin 128 → Fin 128 → EReal) (b2 : Fin 128 → EReal)

/-! ## The gated rows, pooled per graph -/

/-- The linear layer at edge `j`, output `c`. -/
def hidR (j : Fin 320000) (c : Fin 256) : EReal := (∑ k : Fin 128, feat j k * W1 k c) + b1 c
/-- The gated value: the first half times the logistic function of the second half. -/
def gateR (j : Fin 320000) (c : Fin 128) : EReal := hidR feat W1 b1 j (lo c) * Ideal.logistic (hidR feat W1 b1 j (hi c))
/-- Graph `b`'s pooled row: the sum of the gated rows of the edges whose word, read signed, is `b`. -/
def poolR (b : Fin 64) (c : Fin 128) : EReal :=
  ∑ j ∈ Finset.univ.filter (fun j : Fin 320000 => (seg j).toInt = (b.val : Int)), gateR feat W1 b1 j c

/-- The linear layer with halved weights and bias. -/
def hidK (j : Fin 320000) (c : Fin 256) : EReal := (∑ k : Fin 128, feat j k * (W1 k c * half)) + b1 c * half
/-- The gated value through the hyperbolic tangent. -/
def gateK (j : Fin 320000) (c : Fin 128) : EReal := hidK feat W1 b1 j (lo c) * (1 + Ideal.tanh (hidK feat W1 b1 j (hi c)))
/-- One where the edge's word is graph `b`'s number, zero elsewhere. -/
def onehot (s : BitVec 32) (b : Fin 64) : EReal := if s = BitVec.ofNat 32 b.val then 1 else 0
/-- Tile `t`'s share of graph `b`'s pooled row. -/
def partK (t : Fin 50) (b : Fin 64) (c : Fin 128) : EReal :=
  ∑ r : Fin 6400, onehot (seg (row t r)) b * gateK feat W1 b1 (row t r) c
/-- Graph `b`'s pooled row: the tiles' shares added. -/
def poolK (b : Fin 64) (c : Fin 128) : EReal := ∑ t : Fin 50, partK feat seg W1 b1 t b c

end

/-! ## The normalised, scaled and shifted rows through the second linear layer -/

section
variable (gamma beta : Fin 128 → EReal) (W2 : Fin 128 → Fin 128 → EReal) (b2 : Fin 128 → EReal)
  (P : Fin 64 → Fin 128 → EReal)

/-- Column `c`'s mean over the 64 rows. -/
def mean (c : Fin 128) : EReal := Ideal.div (∑ b : Fin 64, P b c) c64
/-- Column `c`'s variance over the 64 rows. -/
def var (c : Fin 128) : EReal := Ideal.div (∑ b : Fin 64, (P b c - mean P c) * (P b c - mean P c)) c64
/-- The centred entry divided by the square root of the shifted variance. -/
def normR (b : Fin 64) (c : Fin 128) : EReal := Ideal.div (P b c - mean P c) (Ideal.sqrt (var P c + eps))
/-- The centred entry times the reciprocal square root of the shifted variance. -/
def normK (b : Fin 64) (c : Fin 128) : EReal := (P b c - mean P c) * Ideal.rsqrt (var P c + eps)
/-- Scale, shift, second linear layer — over the quotient form. -/
def outR (b : Fin 64) (d : Fin 128) : EReal := (∑ c : Fin 128, (normR P b c * gamma c + beta c) * W2 c d) + b2 d
/-- Scale, shift, second linear layer — over the reciprocal form. -/
def outK (b : Fin 64) (d : Fin 128) : EReal := (∑ c : Fin 128, (normK P b c * gamma c + beta c) * W2 c d) + b2 d

end

end Cert.DeepSets.Spec

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«152796_g7069516169370_cont_9to1c4b_214_5_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.KBlock.lean ====
/-
  The two arithmetic terms of a grid step, read entry by entry over the extended reals.

  The accumulation term: a tile of 6400 edges goes through the linear layer (a product with the weights plus the bias
  row), its first 128 columns are gated by one plus the hyperbolic tangent of its last 128, and the 64-by-6400 one-hot
  matrix of the tile's graph words — entry (b, r) is one when edge r's word is b — multiplies the gated tile: entry
  (b, c) of the result is the sum over the tile's edges r of the one-hot factor times the gated value, added to what
  the accumulator held.

  The final term: the 64 pooled rows are centred by their column means, multiplied by the reciprocal square root of
  the shifted column variance, scaled and shifted by the two parameter rows, multiplied by the second weight matrix,
  and the last bias row is added.
-/
import proofs.«152796_g7069516169370_cont_9to1c4b_214_5_alg».proof.Proof.Gen.KernelIdeal.Skeleton
import proofs.«152796_g7069516169370_cont_9to1c4b_214_5_alg».proof.Proof.Spec
import proofs.«152796_g7069516169370_cont_9to1c4b_214_5_alg».proof.Proof.LibMatProd
import proofs.«152796_g7069516169370_cont_9to1c4b_214_5_alg».proof.Proof.LibDense
import proofs.«152796_g7069516169370_cont_9to1c4b_214_5_alg».proof.Proof.LibFirstAxis
import Idealize.ShloMosaic.Lib.ValueIdx
import Idealize.ShloMosaic.Lib.ValueLayout
import Idealize.ShloMosaic.Lib.Pipeline.Value
import Idealize.ShloMosaic.PureOps.Ideal.Laws

noncomputable section

namespace Cert.DeepSets.Kernel

open Idealize.ShloMosaic Idealize.ShloMosaic.ValueIdx
open Cert.KernelIdeal Cert.KernelIdeal.Gen
open Cert.DeepSets

/-- A `[1, 1, a]` array viewed as a vector reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- The reciprocal square root of a vector, at an index. -/
theorem rsqrt_apply {s : Shape} {φ : FTy} (x : FVec Ideal s φ) (i : s.Idx) : rsqrt x i = Ideal.rsqrt (x i) := rfl

/-- The comparison of a word with graph `b`'s number, widened and read as a number: one or zero. -/
theorem onehot_word (s : BitVec 32) (b : Fin 64) :
    ((((IntOp.cmpi .eq s (BitVec.ofNat 32 b.val)).setWidth 32).toInt : ℝ) : EReal) = Spec.onehot s b := by
  unfold Spec.onehot IntOp.cmpi
  by_cases h : s = BitVec.ofNat 32 b.val
  · rw [if_pos h]
    have e : (s == BitVec.ofNat 32 b.val) = true := by simpa using h
    simp only [e]
    norm_num [BitVec.ofBool]
    all_goals decide
  · rw [if_neg h]
    have e : (s == BitVec.ofNat 32 b.val) = false := by simpa using h
    simp only [e]
    norm_num [BitVec.ofBool]
    all_goals decide

/-- The one-hot matrix of a tile's words, at (b, r). -/
theorem oh_apply (x1 : IVec S1x1x6400 32) (h1 : S1x1x6400.ShapeCasts S6400) (h2 : S6400.ShapeCasts S1x6400)
    (h3 : S1x6400.Broadcasts S64x6400) (h4 : S64x6400.Iotas .tc 32 [0]) (h5 : 1 < 32) (b : Fin 64) (r : Fin 6400) :
    (sitofp .f32 (extui 32 (cmpi .eq (broadcastTo S64x6400 (shapeCast S1x6400 (shapeCast S6400 x1 h1) h2) h3)
        (iota .tc S64x6400 32 [0] h4)) h5) : FVec Ideal S64x6400 .f32) (ix2 b r)
      = Spec.onehot (x1 (ix3 (0 : Fin 1) (0 : Fin 1) r)) b := by
  rw [sitofp_apply, extui_apply]
  show FloatOps.sitofp (F := Ideal) .f32 ((IntOp.cmpi .eq (broadcastTo S64x6400 _ h3 (ix2 b r)) (iota .tc S64x6400 32 [0] h4 (ix2 b r))).setWidth 32) = _
  rw [broadcastTo_1b_ab_apply, shapeCast_a_1a_apply, shapeCast_11a_a_apply, iota_single_apply]
  exact onehot_word _ b

/-- The linear layer on a tile: entry (r, c). -/
def hidB (x0 : FVec Ideal S6400x128 .f32) (x2 : FVec Ideal S128x256 .f32) (x3 : FVec Ideal S1x256 .f32)
    (r : Fin 6400) (c : Fin 256) : EReal :=
  (∑ k : Fin 128, x0 (ix2 r k) * x2 (ix2 k c)) + x3 (ix2 (0 : Fin 1) c)

/-- The gated value on a tile: entry (r, c). -/
def gateB (x0 : FVec Ideal S6400x128 .f32) (x2 : FVec Ideal S128x256 .f32) (x3 : FVec Ideal S1x256 .f32)
    (r : Fin 6400) (c : Fin 128) : EReal :=
  hidB x0 x2 x3 r (Spec.lo c) * (1 + Ideal.tanh (hidB x0 x2 x3 r (Spec.hi c)))

theorem hid_apply (x0 : FVec Ideal S6400x128 .f32) (x2 : FVec Ideal S128x256 .f32) (x3 : FVec Ideal S1x256 .f32)
    (hb : FTy.bf16.bits < FTy.f32.bits) (hs : S128x256.ShapeCasts S128x256) (hs' : S1x256.ShapeCasts S1x256)
    (hbc : S1x256.Broadcasts S6400x256) (r : Fin 6400) (c : Fin 256) :
    addf (matmul dot_S6400x128_S128x256_S6400x256_1_0_0_1_n_n none (truncf .bf16 x0 hb)
        (truncf .bf16 (shapeCast S128x256 x2 hs) hb) (constant S6400x256 .f32 0x00000000#32))
      (broadcastTo S6400x256 (shapeCast S1x256 x3 hs') hbc) (ix2 r c) = hidB x0 x2 x3 r c := by
  rw [shapeCast_self, shapeCast_self, Cert.LibMatProd.matmul_eq _ rfl rfl rfl rfl rfl rfl, addf_apply,
    Cert.LibMatProd.matProd_apply, broadcastTo_1b_ab_apply]
  rfl

theorem gate_apply (H : FVec Ideal S6400x256 .f32) (hl : S6400x256.Slices ![0, 0] S6400x128)
    (hh : S6400x256.Slices ![0, 128] S6400x128) (r : Fin 6400) (c : Fin 128) :
    mulf (extractStridedSlice S6400x128 ![0, 0] H hl)
        (addf (broadcast S6400x128 (Scalar.ofBits (F := Ideal) .f32 0x3F800000#32)) (tanh (extractStridedSlice S6400x128 ![0, 128] H hh)))
        (ix2 r c)
      = H (ix2 r (Spec.lo c)) * (1 + Ideal.tanh (H (ix2 r (Spec.hi c)))) := by
  rw [mulf_apply, addf_apply, broadcast_apply, Cert.LibDense.tanh_apply,
    slice2_axis1_apply 0 H hl r c (Spec.lo c) (by simp [Spec.lo]),
    slice2_axis1_apply 128 H hh r c (Spec.hi c) (by simp [Spec.hi]; omega)]
  congr 2
  exact Cert.LibPlainDot.one_f32

/-- The accumulation term at (b, c). -/
theorem pay3_apply (x0 : FVec Ideal S6400x128 .f32) (x2 : FVec Ideal S128x256 .f32) (x3 : FVec Ideal S1x256 .f32)
    (x1 : IVec S1x1x6400 32) (acc : FVec Ideal S64x128 .f32) (b : Fin 64) (c : Fin 128) :
    k0_pay3 (F := Ideal) x0 x2 x3 x1 acc (ix2 b c)
      = acc (ix2 b c) + ∑ r : Fin 6400, Spec.onehot (x1 (ix3 (0 : Fin 1) (0 : Fin 1) r)) b * gateB x0 x2 x3 r c := by
  unfold k0_pay3
  rw [shapeCast_self, addf_apply]
  congr 1
  refine (congrFun (Cert.LibMatProd.matmul_eq _ rfl rfl rfl rfl rfl rfl _ _ _) (ix2 b c)).trans ?_
  rw [Cert.LibMatProd.matProd_apply]
  refine Finset.sum_congr rfl fun r _ => ?_
  rw [oh_apply, gate_apply, hid_apply, hid_apply]
  rfl

/-- The zero block. -/
theorem pay2_apply (i : S64x128.Idx) : k0_pay2 (F := Ideal) i = 0 := by
  unfold k0_pay2
  rw [shapeCast_self, broadcast_apply]
  exact Ideal.ofBits_zero_f32

/-- A sum down the 64 rows, at column c. -/
theorem colsum_apply (src : FVec Ideal S64x128 .f32) (h : S64x128.Reduces [0] S128) (hφ : FKind.Formats .f32)
    (hacc : (0x00000000#32 : BitVec 32) = 0x00000000#32) (c : Fin 128) :
    multiReduction .add [0] S128 src 0x00000000#32 h hφ hacc (ix1 c) = ∑ b : Fin 64, src (ix2 b c) :=
  Cert.LibFirstAxis.sum_first2_apply src _ h hφ hacc c

end Cert.DeepSets.Kernel

end
-- ==== Proof.KFinal.lean ====
/-
  The last step's output term, entry by entry: the pooled rows centred by their column means, times the reciprocal
  square root of the shifted column variance, scaled and shifted, through the second weight matrix, plus the last bias.
-/
import proofs.«152796_g7069516169370_cont_9to1c4b_214_5_alg».proof.Proof.KBlock

noncomputable section

namespace Cert.DeepSets.Kernel

open Idealize.ShloMosaic Idealize.ShloMosaic.ValueIdx
open Cert.KernelIdeal Cert.KernelIdeal.Gen
open Cert.DeepSets

/-- The normalised, scaled and shifted entry (b, c). -/
theorem pay1_apply (P : FVec Ideal S64x128 .f32) (g be : FVec Ideal S1x128 .f32) (W : FVec Ideal S128x128 .f32)
    (b2 : FVec Ideal S1x128 .f32) (b : Fin 64) (d : Fin 128) :
    k0_pay1 (F := Ideal) P g be W b2 (ix2 b d)
      = Spec.outK (fun c => g (ix2 (0 : Fin 1) c)) (fun c => be (ix2 (0 : Fin 1) c)) (Spec.mat W)
          (fun d => b2 (ix2 (0 : Fin 1) d)) (Spec.mat P) b d := by
  unfold k0_pay1
  rw [addf_apply]
  refine congrArg₂ (· + ·) ?_ ?_
  · refine (Cert.LibDense.matmul2d_apply _ rfl rfl rfl rfl rfl rfl none _ W b d).trans ?_
    refine Finset.sum_congr rfl fun c _ => ?_
    refine congrArg₂ (· * ·) ?_ rfl
    have hs : ∀ (src : FVec Ideal S64x128 .f32) (c : Fin 128),
        multiReduction .add [0] S128 src 0x00000000#32 reduces_S64x128_S128 (.inl rfl) rfl (ix1 c) = ∑ b : Fin 64, src (ix2 b c) :=
      fun src c => colsum_apply src _ _ _ c
    simp only [addf_apply, mulf_apply, subf_apply, divf_apply, broadcast_apply, broadcastTo_1b_ab_apply, shapeCast_self,
      shapeCast_a_1a_apply, rsqrt_apply, hs]
    rfl
  · rw [broadcastTo_1b_ab_apply, shapeCast_self]

end Cert.DeepSets.Kernel

end
-- ==== Proof.KReads.lean ====
/-
  What the body finds in its input blocks at grid step `t`, in terms of the program's arguments.

  The feature block is rows `6400 t … 6400 t + 6399` of the features; the word block is the same stretch of the graph
  words (the words re-laid as 50 rows of 6400 beforehand); the weight block is the first weight matrix with every entry
  multiplied by the word for one half, and the bias block is the first bias likewise, re-laid as one row; the scale,
  shift and last bias blocks are those vectors re-laid as one row; the second weight matrix is itself.
-/
import proofs.«152796_g7069516169370_cont_9to1c4b_214_5_alg».proof.Proof.Gen.KernelIdeal.Frame
import proofs.«152796_g7069516169370_cont_9to1c4b_214_5_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.DeepSets.Kernel

open Idealize.ShloMosaic Idealize.ShloMosaic.TcCoe Idealize.SL.Sem Idealize.ShloMosaic.ValueIdx
open Cert.KernelIdeal Cert.KernelIdeal.Gen
open Cert.DeepSets

variable (m : (ℓ : Loc nD τ sig) → Buf (Elt Ideal) ℓ) (c : Dev nD)

/-! ## The argument arrays, at their literal types -/

abbrev aFeat : S320000x128.Idx → EReal := m ((c : Thread nD τ).loc main_arg0)
abbrev aSeg : S320000.Idx → BitVec 32 := m ((c : Thread nD τ).loc main_arg1)
abbrev aW1 : S128x256.Idx → EReal := m ((c : Thread nD τ).loc main_arg2)
abbrev aB1 : S256.Idx → EReal := m ((c : Thread nD τ).loc main_arg3)
abbrev aGamma : S128.Idx → EReal := m ((c : Thread nD τ).loc main_arg4)
abbrev aBeta : S128.Idx → EReal := m ((c : Thread nD τ).loc main_arg5)
abbrev aW2 : S128x128.Idx → EReal := m ((c : Thread nD τ).loc main_arg6)
abbrev aB2 : S128.Idx → EReal := m ((c : Thread nD τ).loc main_arg7)

/-! ## Where each block sits -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem tlt (t : Fin cfg0.N) : t.val < 50 := lt_of_lt_of_eq t.isLt (show cfg0.N = 50 from N_0)

/-- Grid step `t` as a tile number. -/
def tile (t : Fin cfg0.N) : Fin 50 := ⟨t.val, tlt t⟩

/-! ## The arrays the host operations before the launch prepare -/

/-- A scalar spread over a shape reads the scalar everywhere. -/
theorem splat_apply {s : Shape} (h : S_.BroadcastsInDim s (![] : Fin 0 → Fin s.rank)) (x : S_.Idx → EReal) (i : s.Idx) :
    broadcastInDim s ![] h x i = x ix0 :=
  broadcastInDim_apply _ h x i ix0 (fun ax => ax.elim0)

theorem V_v0 : (V m c main_call0_v0 : S50x1x6400.Idx → BitVec 32)
      = shapeCast S50x1x6400 (m ((c : Thread nD τ).loc main_arg1)) shapeCasts_S320000_S50x1x6400 := by
  dsimp only [V, hostOps0]; after_results; rfl
theorem V_v2 : (V m c main_call0_v2 : S128x256.Idx → EReal)
      = mulf (m ((c : Thread nD τ).loc main_arg2)) (broadcastInDim S128x256 ![] bcast_S_S128x256 (constant (F := Ideal) S_ .f32 0x3F000000#32)) := by
  dsimp only [V, hostOps0]; after_results; rfl
theorem V_v5 : (V m c main_call0_v5 : S1x256.Idx → EReal)
      = shapeCast S1x256 (mulf (m ((c : Thread nD τ).loc main_arg3)) (broadcastInDim S256 ![] bcast_S_S256 (constant (F := Ideal) S_ .f32 0x3F000000#32))) shapeCasts_S256_S1x256 := by
  dsimp only [V, hostOps0]; after_results; rfl
theorem V_v6 : (V m c main_call0_v6 : S1x128.Idx → EReal)
      = shapeCast S1x128 (m ((c : Thread nD τ).loc main_arg4)) shapeCasts_S128_S1x128 := by
  dsimp only [V, hostOps0]; after_results; rfl
theorem V_v7 : (V m c main_call0_v7 : S1x128.Idx → EReal)
      = shapeCast S1x128 (m ((c : Thread nD τ).loc main_arg5)) shapeCasts_S128_S1x128 := by
  dsimp only [V, hostOps0]; after_results; rfl
theorem V_v8 : (V m c main_call0_v8 : S1x128.Idx → EReal)
      = shapeCast S1x128 (m ((c : Thread nD τ).loc main_arg7)) shapeCasts_S128_S1x128 := by
  dsimp only [V, hostOps0]; after_results; rfl

/-! ## The blocks -/

/-- The feature block: row `r` is edge `6400 t + r`. -/
theorem blk0 (t : Fin cfg0.N) (r : Fin 6400) (k : Fin 128) :
    (iblk m c 0 t : Vec Ideal S6400x128 .f32) (ix2 r k)
      = Spec.mat (aFeat m c) (Spec.row (tile t) r) k := by
  unfold iblk
  rw [View.read_apply]
  show V m c main_arg0 (((cfg0.win 0).blk t).view.emb (ix2 r k)) = m (c.tc.loc main_arg0) (ix2 (Spec.row (tile t) r) k)
  rw [V_main_arg0]
  congr 1
  funext a
  apply Fin.ext
  match a with
  | ⟨0, _⟩ => show win0_0.index t 0 * 6400 + 1 * r.val = t.val * 6400 + r.val; rw [(idx0 t).1]; omega
  | ⟨1, _⟩ => show win0_0.index t 1 * 128 + 1 * k.val = k.val; rw [(idx0 t).2]; omega

/-- The word block: entry `r` is edge `6400 t + r`'s word. -/
theorem blk1 (t : Fin cfg0.N) (r : Fin 6400) :
    (iblk m c 1 t : Vec Ideal S1x1x6400 .i32) (ix3 (0 : Fin 1) (0 : Fin 1) r)
      = Spec.vec (aSeg m c) (Spec.row (tile t) r) := by
  unfold iblk
  rw [View.read_apply]
  show V m c main_call0_v0 (((cfg0.win 1).blk t).view.emb (ix3 (0 : Fin 1) (0 : Fin 1) r)) = m (c.tc.loc main_arg1) (ix1 (Spec.row (tile t) r))
  rw [V_v0]
  refine shapeCast_apply (s := S320000) (t := S50x1x6400) (aSeg m c) shapeCasts_S320000_S50x1x6400 _ (ix1 (Spec.row (tile t) r)) ?_
  have e0 : ((((cfg0.win 1).blk t).view.emb (ix3 (0 : Fin 1) (0 : Fin 1) r)) 0).val = t.val := by
    show win0_1.index t 0 * 1 + 1 * 0 = t.val; rw [(idx1 t).1]; omega
  have e1 : ((((cfg0.win 1).blk t).view.emb (ix3 (0 : Fin 1) (0 : Fin 1) r)) 1).val = 0 := by
    show win0_1.index t 1 * 1 + 1 * 0 = 0; rw [(idx1 t).2.1]
  have e2 : ((((cfg0.win 1).blk t).view.emb (ix3 (0 : Fin 1) (0 : Fin 1) r)) 2).val = r.val := by
    show win0_1.index t 2 * 6400 + 1 * r.val = r.val; rw [(idx1 t).2.2]; omega
  rw [Shape.rowMajor_val_three, Shape.rowMajor_val_one, e0, e1, e2]
  show t.val * 6400 + r.val = (t.val * 1 + 0) * 6400 + r.val
  omega

/-- The weight block: the first weights, each times one half. -/
theorem blk2 (t : Fin cfg0.N) (k : Fin 128) (j : Fin 256) :
    (iblk m c 2 t : Vec Ideal S128x256 .f32) (ix2 k j)
      = Spec.mat (aW1 m c) k j * Spec.half := by
  unfold iblk
  rw [View.read_apply]
  show V m c main_call0_v2 (((cfg0.win 2).blk t).view.emb (ix2 k j)) = _
  rw [V_v2]
  have e : ((cfg0.win 2).blk t).view.emb (ix2 k j) = (ix2 k j : S128x256.Idx) := by
    funext a
    apply Fin.ext
    match a with
    | ⟨0, _⟩ => show win0_2.index t 0 * 128 + 1 * k.val = k.val; rw [(idx2 t).1]; omega
    | ⟨1, _⟩ => show win0_2.index t 1 * 256 + 1 * j.val = j.val; rw [(idx2 t).2]; omega
  rw [e, mulf_apply, splat_apply, constant_apply]
  rfl

/-- The bias block: the first bias, each entry times one half, as one row. -/
theorem blk3 (t : Fin cfg0.N) (j : Fin 256) :
    (iblk m c 3 t : Vec Ideal S1x256 .f32) (ix2 (0 : Fin 1) j)
      = Spec.vec (aB1 m c) j * Spec.half := by
  unfold iblk
  rw [View.read_apply]
  show V m c main_call0_v5 (((cfg0.win 3).blk t).view.emb (ix2 (0 : Fin 1) j)) = _
  rw [V_v5]
  have e : ((cfg0.win 3).blk t).view.emb (ix2 (0 : Fin 1) j) = (ix2 (0 : Fin 1) j : S1x256.Idx) := by
    funext a
    apply Fin.ext
    match a with
    | ⟨0, _⟩ => show win0_3.index t 0 * 1 + 1 * 0 = 0; rw [(idx3 t).1]
    | ⟨1, _⟩ => show win0_3.index t 1 * 256 + 1 * j.val = j.val; rw [(idx3 t).2]; omega
  rw [e, shapeCast_a_1a_apply, mulf_apply, splat_apply, constant_apply]
  rfl

/-- A vector re-laid as one row, read through a block that is the whole row. -/
theorem row_blk (w : Fin cfg0.W) (t : Fin cfg0.N) (X : S128.Idx → EReal) (h : S128.ShapeCasts S1x128) (j : Fin 128)
    (i : S1x128.Idx) (hi0 : (i 0).val = 0) (hi1 : (i 1).val = j.val) :
    shapeCast S1x128 X h i = X (ix1 j) := by
  obtain rfl : i = ix2 (0 : Fin 1) j := by
    funext a; apply Fin.ext
    match a with
    | ⟨0, _⟩ => exact hi0
    | ⟨1, _⟩ => exact hi1
  exact shapeCast_a_1a_apply X h 0 j

theorem blk4 (t : Fin cfg0.N) (j : Fin 128) :
    (iblk m c 4 t : Vec Ideal S1x128 .f32) (ix2 (0 : Fin 1) j) = Spec.vec (aGamma m c) j := by
  unfold iblk
  rw [View.read_apply]
  show V m c main_call0_v6 (((cfg0.win 4).blk t).view.emb (ix2 (0 : Fin 1) j)) = _
  rw [V_v6]
  refine row_blk 4 t _ _ j _ ?_ ?_
  · show win0_4.index t 0 * 1 + 1 * 0 = 0; rw [(idx4 t).1]
  · show win0_4.index t 1 * 128 + 1 * j.val = j.val; rw [(idx4 t).2]; omega

theorem blk5 (t : Fin cfg0.N) (j : Fin 128) :
    (iblk m c 5 t : Vec Ideal S1x128 .f32) (ix2 (0 : Fin 1) j) = Spec.vec (aBeta m c) j := by
  unfold iblk
  rw [View.read_apply]
  show V m c main_call0_v7 (((cfg0.win 5).blk t).view.emb (ix2 (0 : Fin 1) j)) = _
  rw [V_v7]
  refine row_blk 5 t _ _ j _ ?_ ?_
  · show win0_5.index t 0 * 1 + 1 * 0 = 0; rw [(idx5 t).1]
  · show win0_5.index t 1 * 128 + 1 * j.val = j.val; rw [(idx5 t).2]; omega

theorem blk7 (t : Fin cfg0.N) (j : Fin 128) :
    (iblk m c 7 t : Vec Ideal S1x128 .f32) (ix2 (0 : Fin 1) j) = Spec.vec (aB2 m c) j := by
  unfold iblk
  rw [View.read_apply]
  show V m c main_call0_v8 (((cfg0.win 7).blk t).view.emb (ix2 (0 : Fin 1) j)) = _
  rw [V_v8]
  refine row_blk 7 t _ _ j _ ?_ ?_
  · show win0_7.index t 0 * 1 + 1 * 0 = 0; rw [(idx7 t).1]
  · show win0_7.index t 1 * 128 + 1 * j.val = j.val; rw [(idx7 t).2]; omega

/-- The second weight matrix, whole. -/
theorem blk6 (t : Fin cfg0.N) (k : Fin 128) (j : Fin 128) :
    (iblk m c 6 t : Vec Ideal S128x128 .f32) (ix2 k j) = Spec.mat (aW2 m c) k j := by
  unfold iblk
  rw [View.read_apply]
  show V m c main_arg6 (((cfg0.win 6).blk t).view.emb (ix2 k j)) = m (c.tc.loc main_arg6) (ix2 k j)
  rw [V_main_arg6]
  congr 1
  funext a
  apply Fin.ext
  match a with
  | ⟨0, _⟩ => show win0_6.index t 0 * 128 + 1 * k.val = k.val; rw [(idx6 t).1]; omega
  | ⟨1, _⟩ => show win0_6.index t 1 * 128 + 1 * j.val = j.val; rw [(idx6 t).2]; omega

end Cert.DeepSets.Kernel

end
-- ==== Proof.KAccum.lean ====
/-
  The carried accumulator after grid step `n` is the sum of the first `n + 1` tiles' shares of the pooled rows, so after
  the last step it holds the pooled rows; the last step's output block is then the normalised, scaled, shifted and
  projected pooled rows, and that block is the whole result array: the one write-back, at the last step, writes it.
-/
import proofs.«152796_g7069516169370_cont_9to1c4b_214_5_alg».proof.Proof.Gen.KernelIdeal.Value
import proofs.«152796_g7069516169370_cont_9to1c4b_214_5_alg».proof.Proof.KPieces
import proofs.«152796_g7069516169370_cont_9to1c4b_214_5_alg».proof.Proof.KFinal
import proofs.«152796_g7069516169370_cont_9to1c4b_214_5_alg».proof.Proof.KReads

set_option maxRecDepth 16384

noncomputable section

namespace Cert.DeepSets.Kernel

open Idealize.ShloMosaic Idealize.ShloMosaic.TcCoe Idealize.SL.Sem Idealize.ShloMosaic.ValueIdx
open Idealize.ShloMosaic.Pipeline (Dat)
open Cert.KernelIdeal Cert.KernelIdeal.Gen
open Cert.DeepSets

variable (m : (ℓ : Loc nD τ sig) → Buf (Elt Ideal) ℓ) (ρ : Dev nD → PrngReg) (c : Dev nD)

/-! ## One step -/

/-- The gated value on a tile whose blocks are the tile's rows, the halved weights and the halved bias. -/
theorem gateB_eq (x0 : FVec Ideal S6400x128 .f32) (x2 : FVec Ideal S128x256 .f32) (x3 : FVec Ideal S1x256 .f32)
    (feat : Fin 320000 → Fin 128 → EReal) (W1 : Fin 128 → Fin 256 → EReal) (b1 : Fin 256 → EReal) (t : Fin 50)
    (h0 : ∀ r k, x0 (ix2 r k) = feat (Spec.row t r) k) (h2 : ∀ k j, x2 (ix2 k j) = W1 k j * Spec.half)
    (h3 : ∀ j, x3 (ix2 (0 : Fin 1) j) = b1 j * Spec.half) (r : Fin 6400) (j : Fin 128) :
    gateB x0 x2 x3 r j = Spec.gateK feat W1 b1 (Spec.row t r) j := by
  unfold gateB hidB Spec.gateK Spec.hidK
  simp only [h0, h2, h3]

/-- Tile `n`'s share of the pooled rows, for a step number (zero past the grid). -/
def partN (n : ℕ) (b : Fin 64) (j : Fin 128) : EReal :=
  if h : n < 50 then Spec.partK (Spec.mat (aFeat m c)) (Spec.vec (aSeg m c)) (Spec.mat (aW1 m c)) (Spec.vec (aB1 m c)) ⟨n, h⟩ b j else 0

/-- The accumulation term at step `t`: what was there plus tile `t`'s share. -/
theorem step_apply (t : Fin cfg0.N) (acc : FVec Ideal S64x128 .f32) (b : Fin 64) (j : Fin 128) :
    k0_pay3 (F := Ideal) (iblk m c 0 t) (iblk m c 2 t) (iblk m c 3 t) (iblk m c 1 t) acc (ix2 b j) = acc (ix2 b j) + partN m c t.val b j := by
  refine (pay3_apply (iblk m c 0 t) (iblk m c 2 t) (iblk m c 3 t) (iblk m c 1 t) acc b j).trans ?_
  congr 1
  unfold partN
  rw [dif_pos (tlt t)]
  unfold Spec.partK
  refine Finset.sum_congr rfl fun r _ => ?_
  rw [blk1 m c t r, gateB_eq (iblk m c 0 t) (iblk m c 2 t) (iblk m c 3 t) (Spec.mat (aFeat m c)) (Spec.mat (aW1 m c)) (Spec.vec (aB1 m c)) (tile t) (blk0 m c t) (blk2 m c t) (blk3 m c t) r j]
  rfl

/-! ## The three cases' values at a point -/

theorem soutA_at (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) = k0_pay3 (F := Ideal) (iblk m c 0 t) (iblk m c 2 t) (iblk m c 3 t) (iblk m c 1 t) (k0_pay2 (F := Ideal)) :=
  sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t)

theorem soutB_at (t : Fin cfg0.N) (hc0 : ¬cond0_0 (grid0.coords t)) (hc1 : ¬cond0_1 (grid0.coords t)) (prev : Vec Ideal S64x128 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) prev = k0_pay3 (F := Ideal) (iblk m c 0 t) (iblk m c 2 t) (iblk m c 3 t) (iblk m c 1 t) prev :=
  sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) prev

theorem soutC_at (t : Fin cfg0.N) (hc0 : ¬cond0_0 (grid0.coords t)) (hc1 : cond0_1 (grid0.coords t)) (prev : Vec Ideal S64x128 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) prev = k0_pay3 (F := Ideal) (iblk m c 0 t) (iblk m c 2 t) (iblk m c 3 t) (iblk m c 1 t) prev :=
  sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) prev

theorem outC_at (t : Fin cfg0.N) (hc0 : ¬cond0_0 (grid0.coords t)) (hc1 : cond0_1 (grid0.coords t)) (prev : Vec Ideal S64x128 .f32) :
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) prev
      = k0_pay1 (F := Ideal) (k0_pay3 (F := Ideal) (iblk m c 0 t) (iblk m c 2 t) (iblk m c 3 t) (iblk m c 1 t) prev) (iblk m c 4 t) (iblk m c 5 t) (iblk m c 6 t) (iblk m c 7 t) :=
  out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) prev

/-! ## The accumulator after each step -/

theorem acc_eq : ∀ (n : ℕ) (h : n < cfg0.N) (b : Fin 64) (j : Fin 128),
    (outsAt0 m c n h).2 (ix2 b j) = ∑ s ∈ Finset.range (n + 1), partN m c s b j
  | 0, h, b, j => by
    rw [outsAt0_A m c ⟨0, h⟩ rfl (by show ¬(0 % 50 = 49); decide)]
    dsimp only
    rw [soutA_at m c ⟨0, h⟩ _ _]
    refine (step_apply m c ⟨0, h⟩ _ b j).trans ?_
    rw [pay2_apply, zero_add, Finset.sum_range_one]
  | n + 1, h, b, j => by
    have hN : n + 1 < 50 := lt_of_lt_of_eq h (show cfg0.N = 50 from N_0)
    have h0 : ¬(⟨n + 1, h⟩ : Fin cfg0.N).val % 50 = 0 := by dsimp only; omega
    have ih := acc_eq n (Nat.lt_of_succ_lt h) b j
    rw [Finset.sum_range_succ, ← ih]
    by_cases h1 : (⟨n + 1, h⟩ : Fin cfg0.N).val % 50 = 49
    · rw [outsAt0_C m c ⟨n + 1, h⟩ h0 h1]
      dsimp only
      rw [soutC_at m c ⟨n + 1, h⟩ _ _ _]
      exact step_apply m c ⟨n + 1, h⟩ _ b j
    · rw [outsAt0_B m c ⟨n + 1, h⟩ h0 h1]
      dsimp only
      rw [soutB_at m c ⟨n + 1, h⟩ _ _ _]
      exact step_apply m c ⟨n + 1, h⟩ _ b j

/-- After the last step the accumulator holds the pooled rows. -/
theorem pool_eq (t : Fin cfg0.N) (h49 : t.val = 49) :
    Spec.mat ((outsAt0 m c t.val t.isLt).2 : S64x128.Idx → EReal)
      = Spec.poolK (Spec.mat (aFeat m c)) (Spec.vec (aSeg m c)) (Spec.mat (aW1 m c)) (Spec.vec (aB1 m c)) := by
  funext b j
  show (outsAt0 m c t.val t.isLt).2 (ix2 b j) = _
  rw [acc_eq m c t.val t.isLt b j, show t.val + 1 = 50 from by omega]
  unfold Spec.poolK
  rw [← Fin.sum_univ_eq_sum_range (fun s => partN m c s b j) 50]
  refine Finset.sum_congr rfl fun s _ => ?_
  unfold partN
  rw [dif_pos s.isLt]

/-! ## The result array -/

/-- The result: the pooled rows normalised, scaled, shifted and projected. -/
def G : S64x128.Idx → EReal :=
  Spec.arr2 (Spec.outK (Spec.vec (aGamma m c)) (Spec.vec (aBeta m c)) (Spec.mat (aW2 m c)) (Spec.vec (aB2 m c))
    (Spec.poolK (Spec.mat (aFeat m c)) (Spec.vec (aSeg m c)) (Spec.mat (aW1 m c)) (Spec.vec (aB1 m c))))

/-- What the last step leaves in the output block. -/
theorem last_eq (t : Fin cfg0.N) (h0 : ¬t.val % 50 = 0) (h1 : t.val % 50 = 49) :
    ((outsAt0 m c t.val t.isLt).1 : S64x128.Idx → EReal) = G m c := by
  have h49 : t.val = 49 := by have := tlt t; omega
  have hX : (outsAt0 m c t.val t.isLt).2
      = k0_pay3 (F := Ideal) (iblk m c 0 t) (iblk m c 2 t) (iblk m c 3 t) (iblk m c 1 t) (outsAt0 m c (t.val - 1) (Nat.lt_of_le_of_lt (Nat.sub_le _ _) t.isLt)).2 := by
    rw [outsAt0_C m c t h0 h1]
    exact soutC_at m c t (fun h => h0 ((hcond0_0 t).mp h)) ((hcond0_1 t).mpr h1) _
  rw [outsAt0_C m c t h0 h1]
  dsimp only
  rw [outC_at m c t _ _ _, ← hX]
  funext i
  obtain ⟨b, d, rfl⟩ : ∃ (b : Fin 64) (d : Fin 128), i = ix2 b d := ⟨i 0, i 1, eq_ix2 i⟩
  refine (pay1_apply _ (iblk m c 4 t) (iblk m c 5 t) (iblk m c 6 t) (iblk m c 7 t) b d).trans ?_
  unfold G
  rw [Spec.arr2_apply, pool_eq m c t h49]
  have e4 : (fun j => (iblk m c 4 t : Vec Ideal S1x128 .f32) (ix2 (0 : Fin 1) j)) = Spec.vec (aGamma m c) := funext fun j => blk4 m c t j
  have e5 : (fun j => (iblk m c 5 t : Vec Ideal S1x128 .f32) (ix2 (0 : Fin 1) j)) = Spec.vec (aBeta m c) := funext fun j => blk5 m c t j
  have e7 : (fun j => (iblk m c 7 t : Vec Ideal S1x128 .f32) (ix2 (0 : Fin 1) j)) = Spec.vec (aB2 m c) := funext fun j => blk7 m c t j
  have e6 : Spec.mat (iblk m c 6 t : Vec Ideal S128x128 .f32) = Spec.mat (aW2 m c) := funext fun k => funext fun j => blk6 m c t k j
  rw [e4, e5, e6, e7]

end Cert.DeepSets.Kernel

end
-- ==== Proof.KRun.lean ====
/-
  The result array after the run. Only the last grid step writes the output block back, and that block is the whole
  64-by-128 array, so the array ends holding what the last step left in the block: the normalised, scaled, shifted and
  projected pooled rows. The arguments end as they were.
-/
import proofs.«152796_g7069516169370_cont_9to1c4b_214_5_alg».proof.Proof.KAccum

set_option maxRecDepth 16384

noncomputable section

namespace Cert.DeepSets.Kernel

open Idealize.ShloMosaic Idealize.ShloMosaic.TcCoe Idealize.SL.Sem Idealize.ShloMosaic.ValueIdx
open Idealize.ShloMosaic.Pipeline (Dat)
open Cert.KernelIdeal Cert.KernelIdeal.Gen
open Cert.DeepSets

variable (m : (ℓ : Loc nD τ sig) → Buf (Elt Ideal) ℓ) (ρ : Dev nD → PrngReg) (c : Dev nD)

/-- The last grid step. -/
def t49 : Fin cfg0.N := ⟨49, by have : cfg0.N = 50 := N_0; omega⟩

/-- The one write-back writes the result: block (0, 0) of the array, read through zero offsets, is the array. -/
theorem flushed_eq (t : Fin cfg0.N) (hf : (cfg0.win 8).flush t = true) :
    (dats m 0 c).flushed 8 t = ((cfg0.win 8).blk t).view.read (Elt Ideal) (G m c) := by
  have h1 : t.val % 50 = 49 := (flush0_8 t).mp hf
  have hN := tlt t
  obtain rfl : t = t49 := Fin.ext (by show t.val = 49; omega)
  rw [Cert.KernelIdeal.Value.flushed8, last_eq m c t49 (by show ¬(49 % 50 = 0); decide) (by show 49 % 50 = 49; decide)]
  have hz' : (fun a => win0_8.index t49 a * main_v0.ty.shape.size a) = fun _ => 0 := funext fun a => by fin_cases a <;> decide
  exact (Memref.read_access_unit_zero (Elt Ideal) main_v0 hz' (fun a => by rw [congrFun hz' a]; simp) (G m c)).symm

/-- So the result array ends holding it: the last step's block covers the array. -/
theorem final8 : (dats m 0 c).arrAt 8 cfg0.N = G m c :=
  (dats m 0 c).arrAt_eq_of_cover 8 (G m c) (flushed_eq m c) fun i =>
    ⟨t49, (flush0_8 t49).mpr (by show 49 % 50 = 49; decide), by
      show i ∈ ((View.whole main_v0).slice (win0_8.rect t49)).set
      rw [View.set_slice_whole, Rect.mem_set_unit]
      intro a
      have h0 : (i 0 : Nat) < 64 := (i 0).isLt
      have h1 : (i 1 : Nat) < 128 := (i 1).isLt
      match a with
      | ⟨0, _⟩ => show win0_8.index t49 0 * win0_8.size 0 ≤ (i 0 : Nat) ∧ (i 0 : Nat) < win0_8.index t49 0 * win0_8.size 0 + win0_8.xsize (grid0.coords t49) 0
                  rw [show win0_8.index t49 0 * win0_8.size 0 = 0 from by decide +kernel, show win0_8.xsize (grid0.coords t49) 0 = 64 from by decide +kernel]; omega
      | ⟨1, _⟩ => show win0_8.index t49 1 * win0_8.size 1 ≤ (i 1 : Nat) ∧ (i 1 : Nat) < win0_8.index t49 1 * win0_8.size 1 + win0_8.xsize (grid0.coords t49) 1
                  rw [show win0_8.index t49 1 * win0_8.size 1 = 0 from by decide +kernel, show win0_8.xsize (grid0.coords t49) 1 = 128 from by decide +kernel]; omega⟩

/-- The run, read: the result array at the specification's value, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (Cert.KernelIdeal.Value.run_blocks m ρ)

end Cert.DeepSets.Kernel

end
-- ==== Proof.RefOps.lean ====
/-
  The reference program's host operations, in order.

  The program is forty-five operations of its own around one call of an outlined function (the variance of the pooled
  rows), which itself calls a second outlined function (a select against a broadcast scalar). A call executes the
  callee's body on the operands, so the program runs sixty-seven operations in order: the caller's first twenty-five
  (the gated linear layer, the pooling, the column means), the nineteen of the variance, the three of the select, the
  caller's last twenty (normalise, scale, shift, the second linear layer). Each writes one buffer of its own and reads
  buffers written earlier or arguments.
-/
import proofs.«152796_g7069516169370_cont_9to1c4b_214_5_alg».proof.Proof.Gen.ReferenceIdeal
import Idealize.ShloMosaic.Lib.StableHlo.Run

noncomputable section

namespace Cert.DeepSets.Ref

open Cert.ReferenceIdeal Cert.ReferenceIdeal.Gen Idealize.ShloMosaic Idealize.ShloMosaic.TcCoe Idealize.SL.Sem Idealize.ShloMosaic.StableHlo

variable {F : FTy → Type} [FloatOps F]

/-- The sixty-seven operations in order, the callees' operations over the calls' own buffers in place of the calls. -/
abbrev ops : List (HloOp τ sig (Elt F)) :=
  [ StableHlo.binary main_arg0 main_arg2 main_v0 ((fun l r => Host.dotGeneral dot_S320000x128_S128x256_S320000x256_1_0_0_1_n_n none l r) : (⟨S320000x128, .f32⟩ : BufTy).Contents (Elt F) → (⟨S128x256, .f32⟩ : BufTy).Contents (Elt F) → (⟨S320000x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S320000x256 ![0, 1] bcast_S1x256_S320000x256_0_1 : (⟨S1x256, .f32⟩ : BufTy).Contents (Elt F) → (⟨S320000x256, .f32⟩ : BufTy).Contents (Elt F)),
    StableHlo.binary main_v0 main_v2 main_v3 (addf : (⟨S320000x256, .f32⟩ : BufTy).Contents (Elt F) → (⟨S320000x256, .f32⟩ : BufTy).Contents (Elt F) → (⟨S320000x256, .f32⟩ : BufTy).Contents (Elt F)),
    StableHlo.unary main_v3 main_v4 ((extractStridedSlice S320000x128 ![0, 0] · slices_S320000x256_S320000x128_0_0) : (⟨S320000x256, .f32⟩ : BufTy).Contents (Elt F) → (⟨S320000x128, .f32⟩ : BufTy).Contents (Elt F)),
    StableHlo.unary main_v3 main_v5 ((extractStridedSlice S320000x128 ![0, 128] · slices_S320000x256_S320000x128_0_128) : (⟨S320000x256, .f32⟩ : BufTy).Contents (Elt F) → (⟨S320000x128, .f32⟩ : BufTy).Contents (Elt F)),
    StableHlo.unary main_v5 main_v6 (Host.negf : (⟨S320000x128, .f32⟩ : BufTy).Contents (Elt F) → (⟨S320000x128, .f32⟩ : BufTy).Contents (Elt F)),
    StableHlo.unary main_v6 main_v7 (Host.exp : (⟨S320000x128, .f32⟩ : BufTy).Contents (Elt F) → (⟨S320000x128, .f32⟩ : BufTy).Contents (Elt F)),
    StableHlo.nullary main_cst (constant S_ .f32 0x3F800000#32),
    StableHlo.unary main_cst main_v8 (broadcastInDim S320000x128 ![] bcast_S_S320000x128 : (⟨S_, .f32⟩ : BufTy).Contents (Elt F) → (⟨S320000x128, .f32⟩ : BufTy).Contents (Elt F)),
    StableHlo.binary main_v8 main_v7 main_v9 (addf : (⟨S320000x128, .f32⟩ : BufTy).Contents (Elt F) → (⟨S320000x128, .f32⟩ : BufTy).Contents (Elt F) → (⟨S320000x128, .f32⟩ : BufTy).Contents (Elt F)),
    StableHlo.nullary main_cst_0 (constant S_ .f32 0x3F800000#32),
    StableHlo.unary main_cst_0 main_v10 (broadcastInDim S320000x128 ![] bcast_S_S320000x128 : (⟨S_, .f32⟩ : BufTy).Contents (Elt F) → (⟨S320000x128, .f32⟩ : BufTy).Contents (Elt F)),
    StableHlo.binary main_v10 main_v9 main_v11 (Host.divf : (⟨S320000x128, .f32⟩ : BufTy).Contents (Elt F) → (⟨S320000x128, .f32⟩ : BufTy).Contents (Elt F) → (⟨S320000x128, .f32⟩ : BufTy).Contents (Elt F)),
    StableHlo.binary main_v4 main_v11 main_v12 (mulf : (⟨S320000x128, .f32⟩ : BufTy).Contents (Elt F) → (⟨S320000x128, .f32⟩ : BufTy).Contents (Elt F) → (⟨S320000x128, .f32⟩ : BufTy).Contents (Elt F)),
    StableHlo.nullary main_cst_1 (constant S_ .f32 0x00000000#32),
    StableHlo.unary main_cst_1 main_v13 (broadcastInDim S64x128 ![] bcast_S_S64x128 : (⟨S_, .f32⟩ : BufTy).Contents (Elt F) → (⟨S64x128, .f32⟩ : BufTy).Contents (Elt F)),
    StableHlo.unary main_arg1 main_v14 (broadcastInDim S320000x1 ![0] bcast_S320000_S320000x1_0 : (⟨S320000, .i32⟩ : BufTy).Contents (Elt F) → (⟨S320000x1, .i32⟩ : BufTy).Contents (Elt F)),
    StableHlo.ternary main_v13 main_v14 main_v12 main_v15 ((fun x i u => Host.scatterAdd scatter_S64x128_S320000x1_S320000x128_1_0_0_1 x i u) : (⟨S64x128, .f32⟩ : BufTy).Contents (Elt F) → (⟨S320000x1, .i32⟩ : BufTy).Contents (Elt F) → (⟨S320000x128, .f32⟩ : BufTy).Contents (Elt F) → (⟨S64x128, .f32⟩ : BufTy).Contents (Elt F)),
    StableHlo.nullary main_cst_2 (constant S_ .f32 0x00000000#32),
    StableHlo.binary main_v15 main_cst_2 main_v16 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    StableHlo.nullary main_cst_3 (constant S_ .f32 0x42800000#32),
    StableHlo.unary main_cst_3 main_v17 (broadcastInDim S128 ![] bcast_S_S128 : (⟨S_, .f32⟩ : BufTy).Contents (Elt F) → (⟨S128, .f32⟩ : BufTy).Contents (Elt F)),
    StableHlo.binary main_v16 main_v17 main_v18 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_v15 : TRef sig ⟨S64x128, .f32⟩) main_call0.cst main_call0.v0 (fun x v => Host.reduceAdd x v reducesTo_S64x128_S128_d0 h_S_),
    StableHlo.TRef.unary main_call0.v0 main_call0.v1 (broadcastInDim S1x128 ![1] bcast_S128_S1x128_1),
    StableHlo.TRef.nullary main_call0.cst_0 (constant S_ .f32 0x42800000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S64x128 ![0, 1] bcast_S1x128_S64x128_0_1),
    StableHlo.TRef.binary (.of main_v15 : TRef sig ⟨S64x128, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x42800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S64x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v18 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S64x128 ![0, 1] bcast_S1x128_S64x128_0_1 : (⟨S1x128, .f32⟩ : BufTy).Contents (Elt F) → (⟨S64x128, .f32⟩ : BufTy).Contents (Elt F)),
    StableHlo.binary main_v15 main_v21 main_v22 (subf : (⟨S64x128, .f32⟩ : BufTy).Contents (Elt F) → (⟨S64x128, .f32⟩ : BufTy).Contents (Elt F) → (⟨S64x128, .f32⟩ : BufTy).Contents (Elt F)),
    StableHlo.nullary main_cst_4 (constant S_ .f32 0x3727C5AC#32),
    StableHlo.unary main_cst_4 main_v23 (broadcastInDim S128 ![] bcast_S_S128 : (⟨S_, .f32⟩ : BufTy).Contents (Elt F) → (⟨S128, .f32⟩ : BufTy).Contents (Elt F)),
    StableHlo.binary main_v19 main_v23 main_v24 (addf : (⟨S128, .f32⟩ : BufTy).Contents (Elt F) → (⟨S128, .f32⟩ : BufTy).Contents (Elt F) → (⟨S128, .f32⟩ : BufTy).Contents (Elt F)),
    StableHlo.unary main_v24 main_v25 (Host.sqrt : (⟨S128, .f32⟩ : BufTy).Contents (Elt F) → (⟨S128, .f32⟩ : BufTy).Contents (Elt F)),
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S64x128 ![0, 1] bcast_S1x128_S64x128_0_1 : (⟨S1x128, .f32⟩ : BufTy).Contents (Elt F) → (⟨S64x128, .f32⟩ : BufTy).Contents (Elt F)),
    StableHlo.binary main_v22 main_v27 main_v28 (Host.divf : (⟨S64x128, .f32⟩ : BufTy).Contents (Elt F) → (⟨S64x128, .f32⟩ : BufTy).Contents (Elt F) → (⟨S64x128, .f32⟩ : BufTy).Contents (Elt F)),
    StableHlo.unary main_arg4 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S64x128 ![0, 1] bcast_S1x128_S64x128_0_1 : (⟨S1x128, .f32⟩ : BufTy).Contents (Elt F) → (⟨S64x128, .f32⟩ : BufTy).Contents (Elt F)),
    StableHlo.binary main_v28 main_v30 main_v31 (mulf : (⟨S64x128, .f32⟩ : BufTy).Contents (Elt F) → (⟨S64x128, .f32⟩ : BufTy).Contents (Elt F) → (⟨S64x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S64x128 ![0, 1] bcast_S1x128_S64x128_0_1 : (⟨S1x128, .f32⟩ : BufTy).Contents (Elt F) → (⟨S64x128, .f32⟩ : BufTy).Contents (Elt F)),
    StableHlo.binary main_v31 main_v33 main_v34 (addf : (⟨S64x128, .f32⟩ : BufTy).Contents (Elt F) → (⟨S64x128, .f32⟩ : BufTy).Contents (Elt F) → (⟨S64x128, .f32⟩ : BufTy).Contents (Elt F)),
    StableHlo.binary main_v34 main_arg6 main_v35 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg7 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S64x128 ![0, 1] bcast_S1x128_S64x128_0_1 : (⟨S1x128, .f32⟩ : BufTy).Contents (Elt F) → (⟨S64x128, .f32⟩ : BufTy).Contents (Elt F)),
    StableHlo.binary main_v35 main_v37 main_v38 (addf : (⟨S64x128, .f32⟩ : BufTy).Contents (Elt F) → (⟨S64x128, .f32⟩ : BufTy).Contents (Elt F) → (⟨S64x128, .f32⟩ : BufTy).Contents (Elt F)) ]

/-- No TensorCore buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩

end Cert.DeepSets.Ref

end
-- ==== Proof.RefRun.lean ====
/-
  The reference program's run. The program is the straight line of its sixty-seven operations: a call executes the
  callee's body, sequencing is grafting at the leaves, so the caller's text with the two callees' bodies in place is
  the list's program by computation. No buffer is scoped and every operation stays on the TensorCore's buffers, so
  from any memory with zero counters every weakly fair execution terminates with each buffer at the fold of the
  operations' results over the launch contents.
-/
import proofs.«152796_g7069516169370_cont_9to1c4b_214_5_alg».proof.Proof.RefOps

noncomputable section

namespace Cert.DeepSets.Ref

open Cert.ReferenceIdeal Cert.ReferenceIdeal.Gen Idealize.ShloMosaic Idealize.ShloMosaic.TcCoe Idealize.SL.Sem Idealize.ShloMosaic.StableHlo

variable {F : FTy → Type} [FloatOps F]

/-- The program is the straight line of its operations, the two callees' bodies in place of the calls. -/
theorem main_eq (c : Dev nD) : main (F := F) c = seq ops := rfl

/-- Every weakly fair execution terminates, and each buffer ends at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.DeepSets.Ref

end
-- ==== Proof.LibReadBack.lean ====
/-
  Reading a fold of host operations back at one buffer. The fold `after ops V` applies each operation's result map in
  order. Read at a buffer, it is the value, at the operands' contents, of the function of the last operation that
  writes the buffer; an operation that does not write the buffer leaves what was there; and the operands' contents are
  the fold of the earlier operations read at the operands' buffers, and so on down to the starting contents `V`.
  Unfolding this recursion turns the fold into the composed term of the operations' functions over `V` at the buffers
  no operation writes. It is done in two sweeps: one rewriting sweep over the whole term, which does not reach an
  operand that sits inside a list of shaped pieces (the pieces of a concatenation), and a loop of single rewrites that
  finishes those.
-/
import Idealize.ShloMosaic.Lib.StableHlo.Run

namespace Cert.Lib

open Idealize.ShloMosaic Idealize.ShloMosaic.StableHlo

/-- What the first sweep leaves: each remaining operation's result read at its own buffer becomes its function's value,
    and read at any other buffer what was there before. -/
macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A fold of host operations read at a buffer, unfolded to the composed term: the sweep, then the loop. -/
macro "read_back" : tactic => `(tactic| (after_results_simp; read_results))

end Cert.Lib
-- ==== Proof.RefVal.lean ====
/-
  The reference program's result as a composed term. Each buffer ends at the value of the operation that writes it, at
  the values of its operands; unfolding this down to the arguments gives the result as one term over the argument
  arrays. The term is named stage by stage: the linear layer, the gate, the pooling, the column means, the variance as
  the outlined function computes it (its own mean as a row, the deviations, the count as a float, the quotient, the
  select on a positive count), the normalised rows, and the scale, shift and second linear layer.
-/
import proofs.«152796_g7069516169370_cont_9to1c4b_214_5_alg».proof.Proof.RefRun
import proofs.«152796_g7069516169370_cont_9to1c4b_214_5_alg».proof.Proof.LibReadBack

noncomputable section

namespace Cert.DeepSets.Ref

open Cert.ReferenceIdeal Cert.ReferenceIdeal.Gen Idealize.ShloMosaic Idealize.ShloMosaic.TcCoe Idealize.SL.Sem Idealize.ShloMosaic.StableHlo

variable {F : FTy → Type} [FloatOps F]

open Cert.Lib

/-- The linear layer: features times weights, plus the bias broadcast to one row and then down the rows. -/
def vHid (a0 : FVec F S320000x128 .f32) (a2 : FVec F S128x256 .f32) (a3 : FVec F S256 .f32) : FVec F S320000x256 .f32 :=
  ((addf : (⟨S320000x256, .f32⟩ : BufTy).Contents (Elt F) → (⟨S320000x256, .f32⟩ : BufTy).Contents (Elt F) → (⟨S320000x256, .f32⟩ : BufTy).Contents (Elt F)) (((fun l r => Host.dotGeneral dot_S320000x128_S128x256_S320000x256_1_0_0_1_n_n none l r) : (⟨S320000x128, .f32⟩ : BufTy).Contents (Elt F) → (⟨S128x256, .f32⟩ : BufTy).Contents (Elt F) → (⟨S320000x256, .f32⟩ : BufTy).Contents (Elt F)) a0 a2 : FVec F S320000x256 .f32) ((broadcastInDim S320000x256 ![0, 1] bcast_S1x256_S320000x256_0_1 : (⟨S1x256, .f32⟩ : BufTy).Contents (Elt F) → (⟨S320000x256, .f32⟩ : BufTy).Contents (Elt F)) ((broadcastInDim S1x256 ![1] bcast_S256_S1x256_1 : (⟨S256, .f32⟩ : BufTy).Contents (Elt F) → (⟨S1x256, .f32⟩ : BufTy).Contents (Elt F)) a3 : FVec F S1x256 .f32) : FVec F S320000x256 .f32) : FVec F S320000x256 .f32)

/-- The gate: the first 128 columns times one over (one plus the exponential of the negated last 128 columns). -/
def vGate (h : FVec F S320000x256 .f32) : FVec F S320000x128 .f32 :=
  ((mulf : (⟨S320000x128, .f32⟩ : BufTy).Contents (Elt F) → (⟨S320000x128, .f32⟩ : BufTy).Contents (Elt F) → (⟨S320000x128, .f32⟩ : BufTy).Contents (Elt F)) (((extractStridedSlice S320000x128 ![0, 0] · slices_S320000x256_S320000x128_0_0) : (⟨S320000x256, .f32⟩ : BufTy).Contents (Elt F) → (⟨S320000x128, .f32⟩ : BufTy).Contents (Elt F)) h : FVec F S320000x128 .f32) ((Host.divf : (⟨S320000x128, .f32⟩ : BufTy).Contents (Elt F) → (⟨S320000x128, .f32⟩ : BufTy).Contents (Elt F) → (⟨S320000x128, .f32⟩ : BufTy).Contents (Elt F)) ((broadcastInDim S320000x128 ![] bcast_S_S320000x128 : (⟨S_, .f32⟩ : BufTy).Contents (Elt F) → (⟨S320000x128, .f32⟩ : BufTy).Contents (Elt F)) ((constant S_ .f32 0x3F800000#32) : FVec F S_ .f32) : FVec F S320000x128 .f32) ((addf : (⟨S320000x128, .f32⟩ : BufTy).Contents (Elt F) → (⟨S320000x128, .f32⟩ : BufTy).Contents (Elt F) → (⟨S320000x128, .f32⟩ : BufTy).Contents (Elt F)) ((broadcastInDim S320000x128 ![] bcast_S_S320000x128 : (⟨S_, .f32⟩ : BufTy).Contents (Elt F) → (⟨S320000x128, .f32⟩ : BufTy).Contents (Elt F)) ((constant S_ .f32 0x3F800000#32) : FVec F S_ .f32) : FVec F S320000x128 .f32) ((Host.exp : (⟨S320000x128, .f32⟩ : BufTy).Contents (Elt F) → (⟨S320000x128, .f32⟩ : BufTy).Contents (Elt F)) ((Host.negf : (⟨S320000x128, .f32⟩ : BufTy).Contents (Elt F) → (⟨S320000x128, .f32⟩ : BufTy).Contents (Elt F)) (((extractStridedSlice S320000x128 ![0, 128] · slices_S320000x256_S320000x128_0_128) : (⟨S320000x256, .f32⟩ : BufTy).Contents (Elt F) → (⟨S320000x128, .f32⟩ : BufTy).Contents (Elt F)) h : FVec F S320000x128 .f32) : FVec F S320000x128 .f32) : FVec F S320000x128 .f32) : FVec F S320000x128 .f32) : FVec F S320000x128 .f32) : FVec F S320000x128 .f32)

/-- The pooling: the gated rows added into 64 rows of zeros at the edges' graph numbers. -/
def vPool (s : IVec S320000 32) (g : FVec F S320000x128 .f32) : FVec F S64x128 .f32 :=
  (((fun x i u => Host.scatterAdd scatter_S64x128_S320000x1_S320000x128_1_0_0_1 x i u) : (⟨S64x128, .f32⟩ : BufTy).Contents (Elt F) → (⟨S320000x1, .i32⟩ : BufTy).Contents (Elt F) → (⟨S320000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) ((constant S_ .f32 0x00000000#32) : FVec F S_ .f32) : FVec F S64x128 .f32) ((broadcastInDim S320000x1 ![0] bcast_S320000_S320000x1_0 : (⟨S320000, .i32⟩ : BufTy).Contents (Elt F) → (⟨S320000x1, .i32⟩ : BufTy).Contents (Elt F)) s : IVec S320000x1 32) g : FVec F S64x128 .f32)

/-- The column means: the column sums from zero, divided by the word 64. -/
def vMean (P : FVec F S64x128 .f32) : FVec F S128 .f32 :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) P ((constant S_ .f32 0x00000000#32) : FVec F S_ .f32) : FVec F S128 .f32) ((broadcastInDim S128 ![] bcast_S_S128 : (⟨S_, .f32⟩ : BufTy).Contents (Elt F) → (⟨S128, .f32⟩ : BufTy).Contents (Elt F)) ((constant S_ .f32 0x42800000#32) : FVec F S_ .f32) : FVec F S128 .f32) : FVec F S128 .f32)

/-- Inside the variance: the column means as one row. -/
def cMean (P : FVec F S64x128 .f32) : FVec F S1x128 .f32 :=
  (Host.divf ((broadcastInDim S1x128 ![1] bcast_S128_S1x128_1) ((fun x v => Host.reduceAdd x v reducesTo_S64x128_S128_d0 h_S_) P ((constant S_ .f32 0x00000000#32) : FVec F S_ .f32) : FVec F S128 .f32) : FVec F S1x128 .f32) ((broadcastInDim S1x128 ![] bcast_S_S1x128) ((constant S_ .f32 0x42800000#32) : FVec F S_ .f32) : FVec F S1x128 .f32) : FVec F S1x128 .f32)

/-- Inside the variance: the deviations from the column means. -/
def cDev (P : FVec F S64x128 .f32) : FVec F S64x128 .f32 :=
  (subf P ((broadcastInDim S64x128 ![0, 1] bcast_S1x128_S64x128_0_1) (cMean P) : FVec F S64x128 .f32) : FVec F S64x128 .f32)

/-- Inside the variance: the divisor, the word 64 minus the integer zero converted. -/
def cCnt : FVec F S_ .f32 :=
  (subf ((constant S_ .f32 0x42800000#32) : FVec F S_ .f32) ((sitofp .f32) ((constantI S_ 32 0#32) : IVec S_ 32) : FVec F S_ .f32) : FVec F S_ .f32)

/-- Inside the variance: the column sums of the squared deviations, divided by the divisor. -/
def cVar (P : FVec F S64x128 .f32) : FVec F S128 .f32 :=
  (Host.divf ((fun x v => Host.reduceAdd x v reducesTo_S64x128_S128_d0 h_S_) (mulf (cDev P) (cDev P) : FVec F S64x128 .f32) ((constant S_ .f32 0x00000000#32) : FVec F S_ .f32) : FVec F S128 .f32) ((broadcastInDim S128 ![] bcast_S_S128) cCnt : FVec F S128 .f32) : FVec F S128 .f32)

/-- The variance: the quotient where the divisor is positive, a fixed word elsewhere. -/
def vVar (P : FVec F S64x128 .f32) : FVec F S128 .f32 :=
  ((fun p a b => select (broadcastInDim S128 ![] bcast_S_S128 p) a b) ((cmpf .ogt) cCnt ((constant S_ .f32 0x00000000#32) : FVec F S_ .f32) : IVec S_ 1) (cVar P) ((broadcastInDim S128 ![] bcast_S_S128) (id ((constant S_ .f32 0x7FC00000#32) : FVec F S_ .f32) : FVec F S_ .f32) : FVec F S128 .f32) : FVec F S128 .f32)

/-- The normalised rows: the deviations from the means over the square root of the shifted variance. -/
def vNorm (P : FVec F S64x128 .f32) : FVec F S64x128 .f32 :=
  ((Host.divf : (⟨S64x128, .f32⟩ : BufTy).Contents (Elt F) → (⟨S64x128, .f32⟩ : BufTy).Contents (Elt F) → (⟨S64x128, .f32⟩ : BufTy).Contents (Elt F)) ((subf : (⟨S64x128, .f32⟩ : BufTy).Contents (Elt F) → (⟨S64x128, .f32⟩ : BufTy).Contents (Elt F) → (⟨S64x128, .f32⟩ : BufTy).Contents (Elt F)) P ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) (vMean P) : FVec F S1x128 .f32) : FVec F S64x128 .f32) : FVec F S64x128 .f32) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.sqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (vVar P) ((broadcastInDim S128 ![] bcast_S_S128 : (⟨S_, .f32⟩ : BufTy).Contents (Elt F) → (⟨S128, .f32⟩ : BufTy).Contents (Elt F)) ((constant S_ .f32 0x3727C5AC#32) : FVec F S_ .f32) : FVec F S128 .f32) : FVec F S128 .f32) : FVec F S128 .f32) : FVec F S1x128 .f32) : FVec F S64x128 .f32) : FVec F S64x128 .f32)

/-- Scale, shift, and the second linear layer with its bias. -/
def vOut (a4 a5 : FVec F S128 .f32) (a6 : FVec F S128x128 .f32) (a7 : FVec F S128 .f32) (N : FVec F S64x128 .f32) : FVec F S64x128 .f32 :=
  ((addf : (⟨S64x128, .f32⟩ : BufTy).Contents (Elt F) → (⟨S64x128, .f32⟩ : BufTy).Contents (Elt F) → (⟨S64x128, .f32⟩ : BufTy).Contents (Elt F)) (((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)) ((addf : (⟨S64x128, .f32⟩ : BufTy).Contents (Elt F) → (⟨S64x128, .f32⟩ : BufTy).Contents (Elt F) → (⟨S64x128, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) N ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) a4 : FVec F S1x128 .f32) : FVec F S64x128 .f32) : FVec F S64x128 .f32) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) a5 : FVec F S1x128 .f32) : FVec F S64x128 .f32) : FVec F S64x128 .f32) a6 : FVec F S64x128 .f32) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) a7 : FVec F S1x128 .f32) : FVec F S64x128 .f32) : FVec F S64x128 .f32)

/-- The result buffer after the sixty-seven operations is the composed term over the arguments' contents. -/
theorem after_v38 (V : Valuation τ sig (Elt F)) :
    after ops V (main_v38 : DevRef τ sig)
      = vOut (V (main_arg4 : DevRef τ sig)) (V (main_arg5 : DevRef τ sig)) (V (main_arg6 : DevRef τ sig)) (V (main_arg7 : DevRef τ sig))
          (vNorm (vPool (V (main_arg1 : DevRef τ sig)) (vGate (vHid (V (main_arg0 : DevRef τ sig)) (V (main_arg2 : DevRef τ sig)) (V (main_arg3 : DevRef τ sig)))))) := by
  read_back
  rfl

theorem after_arg0 (V : Valuation τ sig (Elt F)) : after ops V (main_arg0 : DevRef τ sig) = V (main_arg0 : DevRef τ sig) := by
  read_back
theorem after_arg1 (V : Valuation τ sig (Elt F)) : after ops V (main_arg1 : DevRef τ sig) = V (main_arg1 : DevRef τ sig) := by
  read_back
theorem after_arg2 (V : Valuation τ sig (Elt F)) : after ops V (main_arg2 : DevRef τ sig) = V (main_arg2 : DevRef τ sig) := by
  read_back
theorem after_arg3 (V : Valuation τ sig (Elt F)) : after ops V (main_arg3 : DevRef τ sig) = V (main_arg3 : DevRef τ sig) := by
  read_back
theorem after_arg4 (V : Valuation τ sig (Elt F)) : after ops V (main_arg4 : DevRef τ sig) = V (main_arg4 : DevRef τ sig) := by
  read_back
theorem after_arg5 (V : Valuation τ sig (Elt F)) : after ops V (main_arg5 : DevRef τ sig) = V (main_arg5 : DevRef τ sig) := by
  read_back
theorem after_arg6 (V : Valuation τ sig (Elt F)) : after ops V (main_arg6 : DevRef τ sig) = V (main_arg6 : DevRef τ sig) := by
  read_back
theorem after_arg7 (V : Valuation τ sig (Elt F)) : after ops V (main_arg7 : DevRef τ sig) = V (main_arg7 : DevRef τ sig) := by
  read_back

end Cert.DeepSets.Ref

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.RefReadA.lean ====
/-
  The first half of the composed term read entry by entry over the extended reals: the linear layer at edge j and
  output c is the sum over the 128 features plus the bias; the gate at (j, c) is the first-half output times the
  logistic function of the second-half output; graph b's pooled row is, column by column, zero plus the sum of the gated
  values of the edges whose word, read signed, is b.
-/
import proofs.«152796_g7069516169370_cont_9to1c4b_214_5_alg».proof.Proof.RefVal
import proofs.«152796_g7069516169370_cont_9to1c4b_214_5_alg».proof.Proof.Spec
import proofs.«152796_g7069516169370_cont_9to1c4b_214_5_alg».proof.Proof.LibPlainDot
import proofs.«152796_g7069516169370_cont_9to1c4b_214_5_alg».proof.Proof.LibSegment
import Idealize.ShloMosaic.Lib.IdealHost
import Idealize.ShloMosaic.Lib.ValueLayout

noncomputable section

namespace Cert.DeepSets.Ref

open Cert.ReferenceIdeal Cert.ReferenceIdeal.Gen Idealize.ShloMosaic Idealize.ShloMosaic.ValueIdx Cert.DeepSets
open Cert.LibPlainDot Cert.LibSegment

/-- The linear layer is rows times columns plus the bias. -/
theorem vHid_eq (a0 : FVec Ideal S320000x128 .f32) (a2 : FVec Ideal S128x256 .f32) (a3 : FVec Ideal S256 .f32) :
    vHid a0 a2 a3 = affine a0 a2 a3 :=
  dot_bias_eq dot_S320000x128_S128x256_S320000x256_1_0_0_1_n_n rfl rfl rfl rfl rfl rfl a0 a2 a3
    bcast_S256_S1x256_1 bcast_S1x256_S320000x256_0_1

theorem vHid_apply (a0 : FVec Ideal S320000x128 .f32) (a2 : FVec Ideal S128x256 .f32) (a3 : FVec Ideal S256 .f32)
    (j : Fin 320000) (c : Fin 256) :
    vHid a0 a2 a3 (ix2 j c) = Spec.hidR (Spec.mat a0) (Spec.mat a2) (Spec.vec a3) j c := by
  rw [vHid_eq]; rfl

/-- The gate: one over one plus the exponential of the negation is the logistic function; the two column cuts read the
    first and the second half. -/
theorem vGate_apply (h : FVec Ideal S320000x256 .f32) (j : Fin 320000) (c : Fin 128) :
    vGate h (ix2 j c) = h (ix2 j (Spec.lo c)) * Ideal.logistic (h (ix2 j (Spec.hi c))) := by
  have e : vGate h = mulf (extractStridedSlice S320000x128 ![0, 0] h slices_S320000x256_S320000x128_0_0)
      (logistic (extractStridedSlice S320000x128 ![0, 128] h slices_S320000x256_S320000x128_0_128)) :=
    congrArg (mulf _) (host_sigmoid_eq _ bcast_S_S320000x128)
  rw [e]
  show extractStridedSlice S320000x128 ![0, 0] h slices_S320000x256_S320000x128_0_0 (ix2 j c)
      * Ideal.logistic (extractStridedSlice S320000x128 ![0, 128] h slices_S320000x256_S320000x128_0_128 (ix2 j c)) = _
  rw [slice2_axis1_apply 0 h slices_S320000x256_S320000x128_0_0 j c (Spec.lo c) (Nat.zero_add _).symm,
    slice2_axis1_apply 128 h slices_S320000x256_S320000x128_0_128 j c (Spec.hi c) (Nat.add_comm _ _)]

/-- A vector laid as one column reads, at (e, 0), the vector at e. -/
theorem bcast_a_a1_apply {a : ℕ} {α : Type} (x : (⟨1, ![a]⟩ : Shape).Idx → α)
    (h : (⟨1, ![a]⟩ : Shape).BroadcastsInDim ⟨2, ![a, 1]⟩ ![0]) (e : Fin a) :
    broadcastInDim ⟨2, ![a, 1]⟩ ![0] h x (colIdx e) = x (ix1 e) :=
  broadcastInDim_apply _ h x _ _ (fun ax => match ax with
    | ⟨0, _⟩ => by
      show e.val = if a = 1 then 0 else e.val
      split
      · have := e.isLt; omega
      · rfl)

/-- The pooling at (b, c): zero plus the sum, over the edges whose word read signed is b, of the update's entry (j, c). -/
theorem vPool_apply (s : IVec S320000 32) (g : FVec Ideal S320000x128 .f32) (b : Fin 64) (c : Fin 128) :
    vPool (F := Ideal) s g (ix2 b c)
      = ∑ j ∈ Finset.univ.filter (fun j : Fin 320000 => (s (ix1 j)).toInt = (b.val : Int)), g (ix2 j c) := by
  have e1 : vPool (F := Ideal) s g = Host.scatterAdd scatter_S64x128_S320000x1_S320000x128_1_0_0_1
      (broadcastInDim S64x128 ![] bcast_S_S64x128 (constant S_ .f32 0x00000000#32))
      (broadcastInDim S320000x1 ![0] bcast_S320000_S320000x1_0 s) g := rfl
  have e2 : scatter_S64x128_S320000x1_S320000x128_1_0_0_1
      = rowAddDims 64 128 320000 scatter_S64x128_S320000x1_S320000x128_1_0_0_1_wf := rfl
  rw [e1, e2, hostScatterAdd_rows_apply, broadcastInDim_scalar_apply, constant_apply, Ideal.ofBits_zero_f32, zero_add]
  refine Finset.sum_congr (Finset.filter_congr fun e _ => ?_) fun _ _ => rfl
  rw [bcast_a_a1_apply]

/-- The pooled rows of the gated linear layer are the pooled rows of the specification. -/
theorem pool_eq (a0 : FVec Ideal S320000x128 .f32) (s : IVec S320000 32) (a2 : FVec Ideal S128x256 .f32) (a3 : FVec Ideal S256 .f32) :
    Spec.mat (vPool s (vGate (vHid a0 a2 a3))) = Spec.poolR (Spec.mat a0) (Spec.vec s) (Spec.mat a2) (Spec.vec a3) := by
  funext b c
  show vPool s (vGate (vHid a0 a2 a3)) (ix2 b c) = _
  rw [vPool_apply]
  refine Finset.sum_congr rfl fun j _ => ?_
  rw [vGate_apply, vHid_apply, vHid_apply]
  rfl

end Cert.DeepSets.Ref

end
-- ==== Proof.RefReadB.lean ====
/-
  The second half of the composed term read entry by entry over the extended reals: the column means and the variance
  (whose divisor, the word 64 minus the integer zero converted, is the word 64, which is positive, so the select takes
  the quotient), the deviations over the square root of the shifted variance, and scale, shift and the second linear
  layer.
-/
import proofs.«152796_g7069516169370_cont_9to1c4b_214_5_alg».proof.Proof.RefVal
import proofs.«152796_g7069516169370_cont_9to1c4b_214_5_alg».proof.Proof.Spec
import proofs.«152796_g7069516169370_cont_9to1c4b_214_5_alg».proof.Proof.LibPlainDot
import proofs.«152796_g7069516169370_cont_9to1c4b_214_5_alg».proof.Proof.LibFirstAxis
import Idealize.ShloMosaic.Lib.IdealHost

noncomputable section

namespace Cert.DeepSets.Ref

open Cert.ReferenceIdeal Cert.ReferenceIdeal.Gen Idealize.ShloMosaic Idealize.ShloMosaic.ValueIdx Cert.DeepSets
open Cert.LibPlainDot

open Cert.LibFirstAxis

/-- The float word 0x42800000 is sixty-four. -/
theorem c64_eq : Spec.c64 = ((64 : ℝ) : EReal) := by
  unfold Spec.c64
  simp [Ideal.ofBits, Ideal.ieee, -EReal.coe_mul]; norm_num

theorem c64_pos : (0 : EReal) < Spec.c64 := by
  rw [c64_eq]; exact EReal.coe_pos.mpr (by norm_num)

/-- A column sum from zero over the 64 rows. -/
theorem colsum_apply (P : FVec Ideal S64x128 .f32) (c : Fin 128) :
    Host.reduceAdd P (constant (F := Ideal) S_ .f32 0x00000000#32) reducesTo_S64x128_S128_d0 h_S_ (ix1 c) = ∑ b : Fin 64, P (ix2 b c) := by
  have hR : S64x128.Reduces [0] S128 := by decide
  rw [hostReduceAdd_apply, Ideal.hostReduceAdd_single reducesTo_S64x128_S128_d0 hR, constant_apply, Ideal.ofBits_zero_f32, zero_add]
  exact Finset.sum_congr rfl fun k _ => congrArg P (lift_first2 hR c k)

/-- The column means. -/
theorem vMean_apply (P : FVec Ideal S64x128 .f32) (c : Fin 128) : vMean P (ix1 c) = Spec.mean (Spec.mat P) c := by
  show Ideal.div (Host.reduceAdd P (constant (F := Ideal) S_ .f32 0x00000000#32) reducesTo_S64x128_S128_d0 h_S_ (ix1 c))
      (broadcastInDim S128 ![] bcast_S_S128 (constant (F := Ideal) S_ .f32 0x42800000#32) (ix1 c)) = _
  rw [colsum_apply, broadcastInDim_scalar_apply, constant_apply]
  rfl

/-- Inside the variance, the means as one row. -/
theorem cMean_apply (P : FVec Ideal S64x128 .f32) (c : Fin 128) : cMean P (ix2 (0 : Fin 1) c) = Spec.mean (Spec.mat P) c := by
  show Ideal.div (broadcastInDim S1x128 ![1] bcast_S128_S1x128_1
        (Host.reduceAdd P (constant (F := Ideal) S_ .f32 0x00000000#32) reducesTo_S64x128_S128_d0 h_S_) (ix2 (0 : Fin 1) c))
      (broadcastInDim S1x128 ![] bcast_S_S1x128 (constant (F := Ideal) S_ .f32 0x42800000#32) (ix2 (0 : Fin 1) c)) = _
  rw [bcast_a_1a_apply, colsum_apply, broadcastInDim_scalar_apply, constant_apply]
  rfl

/-- The deviations from the means. -/
theorem cDev_apply (P : FVec Ideal S64x128 .f32) (b : Fin 64) (c : Fin 128) :
    cDev P (ix2 b c) = Spec.mat P b c - Spec.mean (Spec.mat P) c := by
  show P (ix2 b c) - broadcastInDim S64x128 ![0, 1] bcast_S1x128_S64x128_0_1 (cMean P) (ix2 b c) = _
  rw [bcast_1b_ab_apply, cMean_apply]
  rfl

/-- The divisor: 64 minus the integer zero converted is 64. -/
theorem cCnt_apply : cCnt (F := Ideal) ix0 = Spec.c64 := by
  show Ideal.ofBits .f32 0x42800000#32 - (((0#32 : BitVec 32).toInt : ℝ) : EReal) = _
  have h0 : (((0#32 : BitVec 32).toInt : ℝ) : EReal) = 0 := by simp
  rw [h0, sub_zero]
  rfl

/-- The quotient inside the variance. -/
theorem cVar_apply (P : FVec Ideal S64x128 .f32) (c : Fin 128) : cVar P (ix1 c) = Spec.var (Spec.mat P) c := by
  show Ideal.div (Host.reduceAdd (mulf (cDev P) (cDev P)) (constant (F := Ideal) S_ .f32 0x00000000#32) reducesTo_S64x128_S128_d0 h_S_ (ix1 c))
      (broadcastInDim S128 ![] bcast_S_S128 (cCnt (F := Ideal)) (ix1 c)) = _
  rw [colsum_apply, broadcastInDim_scalar_apply, cCnt_apply]
  unfold Spec.var
  refine congrArg (fun t => Ideal.div t Spec.c64) (Finset.sum_congr rfl fun b _ => ?_)
  show cDev P (ix2 b c) * cDev P (ix2 b c) = _
  rw [cDev_apply]

/-- The variance: the divisor is positive, so the select takes the quotient. -/
theorem vVar_apply (P : FVec Ideal S64x128 .f32) (c : Fin 128) : vVar P (ix1 c) = Spec.var (Spec.mat P) c := by
  show Scalar.select (broadcastInDim S128 ![] bcast_S_S128 (cmpf .ogt (cCnt (F := Ideal)) (constant (F := Ideal) S_ .f32 0x00000000#32)) (ix1 c))
      (cVar P (ix1 c)) _ = _
  rw [broadcastInDim_scalar_apply, cmpf_apply, cCnt_apply, constant_apply, Ideal.ofBits_zero_f32, Ideal.cmpf_def]
  have hp : Ideal.cmp .ogt Spec.c64 0 = 1#1 := by
    show BitVec.ofBool (decide ((0 : EReal) < Spec.c64)) = 1#1
    rw [decide_eq_true c64_pos]; rfl
  rw [hp, select_one, cVar_apply]

/-- The normalised rows. -/
theorem vNorm_apply (P : FVec Ideal S64x128 .f32) (b : Fin 64) (c : Fin 128) :
    vNorm P (ix2 b c) = Spec.normR (Spec.mat P) b c := by
  show Ideal.div (P (ix2 b c) - broadcastInDim S64x128 ![0, 1] bcast_S1x128_S64x128_0_1
        (broadcastInDim S1x128 ![1] bcast_S128_S1x128_1 (vMean P)) (ix2 b c))
      (broadcastInDim S64x128 ![0, 1] bcast_S1x128_S64x128_0_1 (broadcastInDim S1x128 ![1] bcast_S128_S1x128_1
        (Host.sqrt (addf (vVar P) (broadcastInDim S128 ![] bcast_S_S128 (constant (F := Ideal) S_ .f32 0x3727C5AC#32))))) (ix2 b c)) = _
  rw [bcast_1b_ab_apply, bcast_a_1a_apply, bcast_1b_ab_apply, bcast_a_1a_apply, vMean_apply]
  show Ideal.div _ (Ideal.sqrt (vVar P (ix1 c) + broadcastInDim S128 ![] bcast_S_S128 (constant (F := Ideal) S_ .f32 0x3727C5AC#32) (ix1 c))) = _
  rw [vVar_apply, broadcastInDim_scalar_apply, constant_apply]
  rfl

/-- Scale, shift and the second linear layer. -/
theorem vOut_apply (a4 a5 : FVec Ideal S128 .f32) (a6 : FVec Ideal S128x128 .f32) (a7 : FVec Ideal S128 .f32)
    (N : FVec Ideal S64x128 .f32) (b : Fin 64) (d : Fin 128) :
    vOut a4 a5 a6 a7 N (ix2 b d)
      = (∑ c : Fin 128, (N (ix2 b c) * a4 (ix1 c) + a5 (ix1 c)) * a6 (ix2 c d)) + a7 (ix1 d) := by
  have e : vOut a4 a5 a6 a7 N = affine
      (addf (mulf N (broadcastInDim S64x128 ![0, 1] bcast_S1x128_S64x128_0_1 (broadcastInDim S1x128 ![1] bcast_S128_S1x128_1 a4)))
        (broadcastInDim S64x128 ![0, 1] bcast_S1x128_S64x128_0_1 (broadcastInDim S1x128 ![1] bcast_S128_S1x128_1 a5))) a6 a7 :=
    dot_bias_eq dot_S64x128_S128x128_S64x128_1_0_0_1_n_n rfl rfl rfl rfl rfl rfl _ a6 a7 bcast_S128_S1x128_1 bcast_S1x128_S64x128_0_1
  rw [e, affine_apply]
  refine congrArg (· + a7 (ix1 d)) (Finset.sum_congr rfl fun c _ => ?_)
  show (N (ix2 b c) * broadcastInDim S64x128 ![0, 1] bcast_S1x128_S64x128_0_1 (broadcastInDim S1x128 ![1] bcast_S128_S1x128_1 a4) (ix2 b c)
      + broadcastInDim S64x128 ![0, 1] bcast_S1x128_S64x128_0_1 (broadcastInDim S1x128 ![1] bcast_S128_S1x128_1 a5) (ix2 b c)) * a6 (ix2 c d) = _
  rw [bcast_1b_ab_apply, bcast_a_1a_apply, bcast_1b_ab_apply, bcast_a_1a_apply]

end Cert.DeepSets.Ref

end
-- ==== Proof.RefResult.lean ====
/-
  The reference program's run and value: every weakly fair execution terminates; the result buffer holds, entry by
  entry, the specification's output of the argument arrays (scale, shift and the second linear layer over the rows
  pooled per graph and normalised per column), and the eight argument arrays are unchanged.
-/
import proofs.«152796_g7069516169370_cont_9to1c4b_214_5_alg».proof.Proof.RefReadA
import proofs.«152796_g7069516169370_cont_9to1c4b_214_5_alg».proof.Proof.RefReadB

noncomputable section

namespace Cert.DeepSets.Ref

open Cert.ReferenceIdeal Cert.ReferenceIdeal.Gen Idealize.ShloMosaic Idealize.ShloMosaic.TcCoe Idealize.SL.Sem Idealize.ShloMosaic.StableHlo
open Idealize.ShloMosaic.ValueIdx Cert.DeepSets

/-- The composed term is the specification's output, entry by entry. -/
theorem value_eq (a0 : FVec Ideal S320000x128 .f32) (s : IVec S320000 32) (a2 : FVec Ideal S128x256 .f32) (a3 : FVec Ideal S256 .f32)
    (a4 a5 : FVec Ideal S128 .f32) (a6 : FVec Ideal S128x128 .f32) (a7 : FVec Ideal S128 .f32) :
    vOut a4 a5 a6 a7 (vNorm (vPool s (vGate (vHid a0 a2 a3))))
      = Spec.arr2 (Spec.outR (Spec.vec a4) (Spec.vec a5) (Spec.mat a6) (Spec.vec a7)
          (Spec.poolR (Spec.mat a0) (Spec.vec s) (Spec.mat a2) (Spec.vec a3))) := by
  funext i
  obtain ⟨b, d, rfl⟩ : ∃ (b : Fin 64) (d : Fin 128), i = ix2 b d := ⟨i 0, i 1, eq_ix2 i⟩
  rw [Spec.arr2_apply, vOut_apply, ← pool_eq]
  unfold Spec.outR
  refine congrArg (· + a7 (ix1 d)) (Finset.sum_congr rfl fun c _ => ?_)
  rw [vNorm_apply]
  rfl

/-- Every weakly fair execution of the reference terminates with the result at the specification's output of the
    arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = Spec.arr2 (Spec.outR (Spec.vec (m ((c.tc : Thread nD τ).loc main_arg4))) (Spec.vec (m ((c.tc : Thread nD τ).loc main_arg5))) (Spec.mat (m ((c.tc : Thread nD τ).loc main_arg6))) (Spec.vec (m ((c.tc : Thread nD τ).loc main_arg7))) (Spec.poolR (Spec.mat (m ((c.tc : Thread nD τ).loc main_arg0))) (Spec.vec (m ((c.tc : Thread nD τ).loc main_arg1))) (Spec.mat (m ((c.tc : Thread nD τ).loc main_arg2))) (Spec.vec (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v38).trans ((after_v38 _).trans (value_eq _ _ _ _ _ _ _ _)),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (run_after m ρ)

end Cert.DeepSets.Ref

end
-- ==== Proof.Sigmoid.lean ====
/-
  The logistic function through the hyperbolic tangent, on the reals:
  1 / (1 + e^(-g)) = (1 + tanh (g / 2)) / 2, and the gated product that follows from it.
-/
import Mathlib

namespace Cert.DeepSets.Sigmoid

/-- The logistic function is the shifted and halved hyperbolic tangent of half the argument. -/
theorem logistic_eq_tanh (g : ℝ) : 1 / (1 + Real.exp (-g)) = (1 + Real.tanh (g / 2)) / 2 := by
  have hy : Real.exp (-g) = Real.exp (-(g / 2)) * Real.exp (-(g / 2)) := by
    rw [← Real.exp_add]; congr 1; ring
  have h1 : Real.exp (g / 2) * Real.exp (-(g / 2)) = 1 := by
    rw [← Real.exp_add]; simp
  have hp : 0 < Real.exp (g / 2) := Real.exp_pos _
  have hn : 0 < Real.exp (-(g / 2)) := Real.exp_pos _
  rw [Real.tanh_eq_sinh_div_cosh, Real.sinh_eq, Real.cosh_eq, hy]
  have hs : Real.exp (g / 2) + Real.exp (-(g / 2)) ≠ 0 := by positivity
  have hd : 1 + Real.exp (-(g / 2)) * Real.exp (-(g / 2)) ≠ 0 := by positivity
  field_simp
  nlinarith [h1, hp, hn]

/-- A value gated by the logistic function of `g` is half the value times one plus the hyperbolic
    tangent of half of `g`. -/
theorem gate_eq (a g : ℝ) : a * (1 / (1 + Real.exp (-g))) = (a / 2) * (1 + Real.tanh (g / 2)) := by
  rw [logistic_eq_tanh]; ring

end Cert.DeepSets.Sigmoid
-- ==== Proof.AlgConsts.lean ====
/-
  The three float words the two forms share, as the reals they denote: one half, sixty-four, and a small
  positive shift.
-/
import proofs.«152796_g7069516169370_cont_9to1c4b_214_5_alg».proof.Proof.Spec

noncomputable section

namespace Cert.DeepSets.Algebra

open Idealize.ShloMosaic

/-- The word of one half denotes the real one half. -/
theorem half_eq : Spec.half = ((1 / 2 : ℝ) : EReal) := by
  unfold Spec.half
  simp [Ideal.ofBits, Ideal.ieee, -EReal.coe_mul]; norm_num

/-- The word of sixty-four denotes the real sixty-four. -/
theorem c64_eq : Spec.c64 = ((64 : ℝ) : EReal) := by
  unfold Spec.c64
  simp [Ideal.ofBits, Ideal.ieee, -EReal.coe_mul]; norm_num

/-- The variance's shift denotes a positive real. -/
theorem eps_pos : ∃ e : ℝ, 0 < e ∧ Spec.eps = (e : EReal) := by
  unfold Spec.eps
  simp [Ideal.ofBits, Ideal.ieee, -EReal.coe_mul]

end Cert.DeepSets.Algebra

end
-- ==== Proof.AlgGate.lean ====
/-
  With real inputs the halved linear layer is half the linear layer, and the gate through the hyperbolic
  tangent is the gate through the logistic function.
-/
import proofs.«152796_g7069516169370_cont_9to1c4b_214_5_alg».proof.Proof.Spec
import proofs.«152796_g7069516169370_cont_9to1c4b_214_5_alg».proof.Proof.Sigmoid
import proofs.«152796_g7069516169370_cont_9to1c4b_214_5_alg».proof.Proof.AlgConsts

noncomputable section

namespace Cert.DeepSets.Algebra

open Idealize.ShloMosaic

/-- A finite sum of reals read as extended reals is the real sum read as an extended real. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

section
variable (F : Fin 320000 → Fin 128 → ℝ) (W : Fin 128 → Fin 256 → ℝ) (B : Fin 256 → ℝ)

/-- The linear layer on the reals. -/
def hidReal (j : Fin 320000) (c : Fin 256) : ℝ := (∑ k : Fin 128, F j k * W k c) + B c

/-- The gated value on the reals. -/
def gateReal (j : Fin 320000) (c : Fin 128) : ℝ :=
  hidReal F W B j (Spec.lo c) * (1 + Real.exp (-(hidReal F W B j (Spec.hi c))))⁻¹

theorem hidR_coe (j : Fin 320000) (c : Fin 256) :
    Spec.hidR (fun j k => (F j k : EReal)) (fun k c => (W k c : EReal)) (fun c => (B c : EReal)) j c
      = (hidReal F W B j c : EReal) := by
  unfold Spec.hidR hidReal
  simp only [← EReal.coe_mul, coe_sum, ← EReal.coe_add]

theorem hidK_coe (j : Fin 320000) (c : Fin 256) :
    Spec.hidK (fun j k => (F j k : EReal)) (fun k c => (W k c : EReal)) (fun c => (B c : EReal)) j c
      = ((hidReal F W B j c / 2 : ℝ) : EReal) := by
  unfold Spec.hidK hidReal
  simp only [half_eq, ← EReal.coe_mul, coe_sum, ← EReal.coe_add]
  congr 1
  rw [add_div, Finset.sum_div]
  congr 1
  · exact Finset.sum_congr rfl fun k _ => by ring
  · ring

theorem gateR_coe (j : Fin 320000) (c : Fin 128) :
    Spec.gateR (fun j k => (F j k : EReal)) (fun k c => (W k c : EReal)) (fun c => (B c : EReal)) j c
      = (gateReal F W B j c : EReal) := by
  unfold Spec.gateR gateReal
  rw [hidR_coe, hidR_coe, Ideal.logistic_coe, ← EReal.coe_mul]

theorem gateK_coe (j : Fin 320000) (c : Fin 128) :
    Spec.gateK (fun j k => (F j k : EReal)) (fun k c => (W k c : EReal)) (fun c => (B c : EReal)) j c
      = (gateReal F W B j c : EReal) := by
  unfold Spec.gateK gateReal
  rw [hidK_coe, hidK_coe, Ideal.tanh_coe, ← EReal.coe_one, ← EReal.coe_add, ← EReal.coe_mul]
  congr 1
  rw [← Sigmoid.gate_eq, one_div]

end

/-- With real features, weights and bias, the two gated values agree and are real. -/
theorem gate_eq {feat : Fin 320000 → Fin 128 → EReal} {W1 : Fin 128 → Fin 256 → EReal} {b1 : Fin 256 → EReal}
    (hfeat : ∀ j k, ∃ r : ℝ, feat j k = (r : EReal)) (hW1 : ∀ k c, ∃ r : ℝ, W1 k c = (r : EReal))
    (hb1 : ∀ c, ∃ r : ℝ, b1 c = (r : EReal)) :
    ∃ G : Fin 320000 → Fin 128 → ℝ,
      (∀ j c, Spec.gateK feat W1 b1 j c = (G j c : EReal)) ∧ (∀ j c, Spec.gateR feat W1 b1 j c = (G j c : EReal)) := by
  choose F hF using hfeat
  choose W hW using hW1
  choose B hB using hb1
  obtain rfl : feat = fun j k => (F j k : EReal) := funext fun j => funext fun k => hF j k
  obtain rfl : W1 = fun k c => (W k c : EReal) := funext fun k => funext fun c => hW k c
  obtain rfl : b1 = fun c => (B c : EReal) := funext fun c => hB c
  exact ⟨gateReal F W B, gateK_coe F W B, gateR_coe F W B⟩

end Cert.DeepSets.Algebra

end
-- ==== Proof.AlgPool.lean ====
/-
  The pooled rows. The one-hot factor picks the edges whose word, read signed, is the graph's number; the
  fifty tiles of 6400 edges are all 320000 edges; so the tiles' shares add up to the filtered sum.
-/
import proofs.«152796_g7069516169370_cont_9to1c4b_214_5_alg».proof.Proof.Spec
import proofs.«152796_g7069516169370_cont_9to1c4b_214_5_alg».proof.Proof.AlgGate

noncomputable section

namespace Cert.DeepSets.Algebra

open Idealize.ShloMosaic

/-- For a graph number below 64, a 32-bit word read signed is that number exactly when it is the number's word. -/
theorem toInt_eq_iff (s : BitVec 32) (b : Fin 64) : s.toInt = (b.val : Int) ↔ s = BitVec.ofNat 32 b.val := by
  have hb := b.isLt
  have hs := s.isLt
  constructor
  · intro h
    apply BitVec.eq_of_toNat_eq
    rw [BitVec.toNat_ofNat]
    unfold BitVec.toInt at h
    split at h <;> omega
  · rintro rfl
    unfold BitVec.toInt
    rw [BitVec.toNat_ofNat]
    split <;> omega

/-- The one-hot factor times a value: the value where the word is the graph's number, zero elsewhere. -/
theorem onehot_mul (s : BitVec 32) (b : Fin 64) (x : EReal) :
    Spec.onehot s b * x = if s.toInt = (b.val : Int) then x else 0 := by
  unfold Spec.onehot
  by_cases h : s = BitVec.ofNat 32 b.val
  · rw [if_pos h, if_pos ((toInt_eq_iff s b).2 h), one_mul]
  · rw [if_neg h, if_neg (fun h' => h ((toInt_eq_iff s b).1 h')), zero_mul]

/-- Tile and position within the tile against the edge number. -/
def tileEquiv : Fin 50 × Fin 6400 ≃ Fin 320000 where
  toFun x := Spec.row x.1 x.2
  invFun j := (⟨j.val / 6400, by omega⟩, ⟨j.val % 6400, by omega⟩)
  left_inv := by
    rintro ⟨t, r⟩
    refine Prod.ext (Fin.ext ?_) (Fin.ext ?_)
    · show (t.val * 6400 + r.val) / 6400 = t.val
      omega
    · show (t.val * 6400 + r.val) % 6400 = r.val
      omega
  right_inv := by
    intro j
    refine Fin.ext ?_
    show j.val / 6400 * 6400 + j.val % 6400 = j.val
    omega

/-- A sum tile by tile is the sum over all edges. -/
theorem sum_tiles (g : Fin 320000 → EReal) :
    (∑ t : Fin 50, ∑ r : Fin 6400, g (Spec.row t r)) = ∑ j : Fin 320000, g j := by
  rw [← Finset.sum_product', Finset.univ_product_univ]
  exact Fintype.sum_equiv tileEquiv _ _ (fun _ => rfl)

/-- The tiles' shares add up to the sum of the gated rows of the graph's own edges. -/
theorem poolK_eq_sum (feat : Fin 320000 → Fin 128 → EReal) (seg : Fin 320000 → BitVec 32)
    (W1 : Fin 128 → Fin 256 → EReal) (b1 : Fin 256 → EReal) (b : Fin 64) (c : Fin 128) :
    Spec.poolK feat seg W1 b1 b c
      = ∑ j ∈ Finset.univ.filter (fun j : Fin 320000 => (seg j).toInt = (b.val : Int)), Spec.gateK feat W1 b1 j c := by
  unfold Spec.poolK Spec.partK
  rw [sum_tiles (fun j => Spec.onehot (seg j) b * Spec.gateK feat W1 b1 j c), Finset.sum_filter]
  exact Finset.sum_congr rfl fun j _ => onehot_mul _ _ _

/-- With real inputs the two pooled rows agree and are real. -/
theorem pool_eq {feat : Fin 320000 → Fin 128 → EReal} (seg : Fin 320000 → BitVec 32)
    {W1 : Fin 128 → Fin 256 → EReal} {b1 : Fin 256 → EReal}
    (hfeat : ∀ j k, ∃ r : ℝ, feat j k = (r : EReal)) (hW1 : ∀ k c, ∃ r : ℝ, W1 k c = (r : EReal))
    (hb1 : ∀ c, ∃ r : ℝ, b1 c = (r : EReal)) :
    Spec.poolK feat seg W1 b1 = Spec.poolR feat seg W1 b1
      ∧ ∀ b c, ∃ r : ℝ, Spec.poolR feat seg W1 b1 b c = (r : EReal) := by
  obtain ⟨G, hK, hR⟩ := gate_eq hfeat hW1 hb1
  refine ⟨funext fun b => funext fun c => ?_, fun b c => ?_⟩
  · rw [poolK_eq_sum]
    unfold Spec.poolR
    exact Finset.sum_congr rfl fun j _ => by rw [hK, hR]
  · unfold Spec.poolR
    refine ⟨∑ j ∈ Finset.univ.filter (fun j : Fin 320000 => (seg j).toInt = (b.val : Int)), G j c, ?_⟩
    rw [← coe_sum]
    exact Finset.sum_congr rfl fun j _ => hR j c

end Cert.DeepSets.Algebra

end
-- ==== Proof.AlgNorm.lean ====
/-
  The normalised rows. For real entries the column's mean and variance are real, the variance is not negative,
  the shift is positive, so the shifted variance is a positive real: dividing by its square root is
  multiplying by its reciprocal square root.
-/
import proofs.«152796_g7069516169370_cont_9to1c4b_214_5_alg».proof.Proof.Spec
import proofs.«152796_g7069516169370_cont_9to1c4b_214_5_alg».proof.Proof.AlgGate

noncomputable section

namespace Cert.DeepSets.Algebra

open Idealize.ShloMosaic

/-- The column's mean of real entries is real. -/
theorem mean_coe (p : Fin 64 → Fin 128 → ℝ) (c : Fin 128) :
    Spec.mean (fun b c => (p b c : EReal)) c = (((∑ b : Fin 64, p b c) * (1 / 64) : ℝ) : EReal) := by
  unfold Spec.mean
  rw [c64_eq, Ideal.div_coe (by norm_num : (64 : ℝ) ≠ 0), coe_sum, ← EReal.coe_mul]

/-- The column's variance of real entries is a real that is not negative. -/
theorem var_coe (p : Fin 64 → Fin 128 → ℝ) (c : Fin 128) :
    ∃ v : ℝ, 0 ≤ v ∧ Spec.var (fun b c => (p b c : EReal)) c = (v : EReal) := by
  refine ⟨(∑ b : Fin 64, (p b c - (∑ b : Fin 64, p b c) * (1 / 64)) * (p b c - (∑ b : Fin 64, p b c) * (1 / 64))) * (1 / 64),
    ?_, ?_⟩
  · refine mul_nonneg (Finset.sum_nonneg fun b _ => mul_self_nonneg _) (by norm_num)
  · unfold Spec.var
    rw [c64_eq, Ideal.div_coe (by norm_num : (64 : ℝ) ≠ 0), mean_coe]
    simp only [← EReal.coe_sub, ← EReal.coe_mul, coe_sum]

/-- For real entries the reciprocal form of the normalised entry is the quotient form. -/
theorem norm_eq {P : Fin 64 → Fin 128 → EReal} (hP : ∀ b c, ∃ r : ℝ, P b c = (r : EReal)) (b : Fin 64) (c : Fin 128) :
    Spec.normK P b c = Spec.normR P b c := by
  choose p hp using hP
  obtain rfl : P = fun b c => (p b c : EReal) := funext fun b => funext fun c => hp b c
  obtain ⟨v, hv0, hv⟩ := var_coe p c
  obtain ⟨e, he0, he⟩ := eps_pos
  have hpos : 0 < v + e := by linarith
  have hs : Real.sqrt (v + e) ≠ 0 := (Real.sqrt_pos.2 hpos).ne'
  unfold Spec.normK Spec.normR
  rw [hv, he, ← EReal.coe_add, Ideal.rsqrt_coe, Ideal.sqrt_coe, if_neg (not_lt.2 hpos.le), if_neg hpos.ne',
    if_neg (not_lt.2 hpos.le), Ideal.div_coe hs, one_div]

end Cert.DeepSets.Algebra

end
-- ==== Proof.Algebra.lean ====
/-
  The two forms of the computation agree on real inputs: the gates agree, the pooled rows agree and are real,
  and on real pooled rows the two normalisations agree.
-/
import proofs.«152796_g7069516169370_cont_9to1c4b_214_5_alg».proof.Proof.Spec
import proofs.«152796_g7069516169370_cont_9to1c4b_214_5_alg».proof.Proof.Sigmoid
import proofs.«152796_g7069516169370_cont_9to1c4b_214_5_alg».proof.Proof.AlgPool
import proofs.«152796_g7069516169370_cont_9to1c4b_214_5_alg».proof.Proof.AlgNorm

noncomputable section

namespace Cert.DeepSets.Algebra

open Idealize.ShloMosaic

/-- On rows with real entries the reciprocal form and the quotient form give the same output. -/
theorem out_eq_of_real (gamma beta : Fin 128 → EReal) (W2 : Fin 128 → Fin 128 → EReal) (b2 : Fin 128 → EReal)
    {P : Fin 64 → Fin 128 → EReal} (hP : ∀ b c, ∃ r : ℝ, P b c = (r : EReal)) :
    Spec.outK gamma beta W2 b2 P = Spec.outR gamma beta W2 b2 P := by
  funext b d
  unfold Spec.outK Spec.outR
  congr 1
  exact Finset.sum_congr rfl fun c _ => by rw [norm_eq hP]

/-- With real features, first-layer weights and first-layer bias, the two computations agree. -/
theorem out_eq {feat : Fin 320000 → Fin 128 → EReal} {seg : Fin 320000 → BitVec 32}
    {W1 : Fin 128 → Fin 256 → EReal} {b1 : Fin 256 → EReal} {gamma beta : Fin 128 → EReal}
    {W2 : Fin 128 → Fin 128 → EReal} {b2 : Fin 128 → EReal}
    (hfeat : ∀ j k, ∃ r : ℝ, feat j k = (r : EReal)) (hW1 : ∀ k c, ∃ r : ℝ, W1 k c = (r : EReal))
    (hb1 : ∀ c, ∃ r : ℝ, b1 c = (r : EReal)) :
    Spec.outK gamma beta W2 b2 (Spec.poolK feat seg W1 b1) = Spec.outR gamma beta W2 b2 (Spec.poolR feat seg W1 b1) := by
  obtain ⟨hpool, hreal⟩ := pool_eq seg hfeat hW1 hb1
  rw [hpool]
  exact out_eq_of_real gamma beta W2 b2 hreal

end Cert.DeepSets.Algebra

end
-- ==== Proof.FiniteElt.lean ====
/-
  An extended real whose absolute value is below plus infinity is a real; the same for every entry of an
  array compared entry by entry against the broadcast word of plus infinity.
-/
import Idealize.ShloMosaic.PureOps.Ideal
import Idealize.ShloMosaic.PureOps

noncomputable section

namespace Cert.DeepSets.Finite

open Idealize.ShloMosaic

/-- The word with all exponent bits set and no fraction bit denotes plus infinity. -/
theorem inf_f32 : Ideal.ofBits .f32 0x7F800000#32 = ⊤ := by
  simp [Ideal.ofBits, Ideal.ieee]

/-- If the larger of x and -x is below plus infinity, x is a real. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "absolute value below the word of plus infinity" coming out one makes the operand a real. -/
theorem real_of_cmp (x : EReal)
    (h : Ideal.cmp .olt (max x (-x)) (Ideal.ofBits .f32 0x7F800000#32) = 1#1) : ∃ r : ℝ, x = (r : EReal) := by
  rw [inf_f32] at h
  refine real_of_abs_lt_top x ?_
  unfold Ideal.cmp at h
  by_contra hn
  simp [hn] at h

/-- Entry by entry: where the comparison of the absolute values against the broadcast word of plus infinity is one,
    the entry is a real. -/
theorem real_of_entry {s : Shape} (a : FVec Ideal s .f32) (hb : (⟨0, ![]⟩ : Shape).BroadcastsInDim s ![]) (i : s.Idx)
    (h : cmpf (F := Ideal) .olt (Host.absf (F := Ideal) a)
        (broadcastInDim s ![] hb (constant (F := Ideal) ⟨0, ![]⟩ .f32 0x7F800000#32)) i = 1#1) :
    ∃ r : ℝ, a i = (r : EReal) :=
  real_of_cmp (a i) h

end Cert.DeepSets.Finite

end
-- ==== Proof.Finite.lean ====
/-
  From the printed precondition to real entries: the precondition is a conjunction of "every entry's absolute value
  is below plus infinity", one conjunct per float array; each conjunct gives every entry of its array as a real.
-/
import proofs.«152796_g7069516169370_cont_9to1c4b_214_5_alg».proof.Pre_finite_inputs
import proofs.«152796_g7069516169370_cont_9to1c4b_214_5_alg».proof.Proof.Gen.Pre_finite_inputs
import proofs.«152796_g7069516169370_cont_9to1c4b_214_5_alg».proof.Proof.FiniteElt
import Idealize.ShloMosaic.Lib.ReduceAll
import Idealize.ShloMosaic.Lib.ValueIdx

noncomputable section

namespace Cert.DeepSets.Finite

open Idealize.ShloMosaic Cert.Pre_finite_inputs

/-- The rank-0 shape has one index. -/
instance : Subsingleton S_.Idx := ⟨fun a b => funext fun d => d.elim0⟩

/-- The precondition all ones: every entry of each of the seven float arrays is a real. -/
theorem real_of_pre (a0 : FVec Ideal S320000x128 .f32) (a1 : IVec S320000 32) (a2 : FVec Ideal S128x256 .f32)
    (a3 : FVec Ideal S256 .f32) (a4 : FVec Ideal S128 .f32) (a5 : FVec Ideal S128 .f32) (a6 : FVec Ideal S128x128 .f32)
    (a7 : FVec Ideal S128 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have e := congrFun h ValueIdx.ix0
  dsimp only [Cert.Pre_finite_inputs.fn, Cert.Pre_finite_inputs.fn_part1] at e
  simp only [andi, IntOp.andi_eq_one] at e
  obtain ⟨⟨⟨⟨⟨⟨h0, h2⟩, h3⟩, h4⟩, h5⟩, h6⟩, h7⟩ := e
  exact ⟨fun i => real_of_entry a0 _ i (Host.reduce_andi_all _ _ _ _ _ h0 i),
    fun i => real_of_entry a2 _ i (Host.reduce_andi_all _ _ _ _ _ h2 i),
    fun i => real_of_entry a3 _ i (Host.reduce_andi_all _ _ _ _ _ h3 i),
    fun i => real_of_entry a4 _ i (Host.reduce_andi_all _ _ _ _ _ h4 i),
    fun i => real_of_entry a5 _ i (Host.reduce_andi_all _ _ _ _ _ h5 i),
    fun i => real_of_entry a6 _ i (Host.reduce_andi_all _ _ _ _ _ h6 i),
    fun i => real_of_entry a7 _ i (Host.reduce_andi_all _ _ _ _ _ h7 i)⟩

end Cert.DeepSets.Finite

end
-- ==== Proof.FiniteArgs.lean ====
/-
  The precondition of the idealized kernel, on a device: the features, the first layer's weights and the first
  layer's bias, read by coordinates, have real entries.
-/
import proofs.«152796_g7069516169370_cont_9to1c4b_214_5_alg».proof.Defs
import proofs.«152796_g7069516169370_cont_9to1c4b_214_5_alg».proof.Proof.Spec
import proofs.«152796_g7069516169370_cont_9to1c4b_214_5_alg».proof.Proof.Finite

noncomputable section

namespace Cert.DeepSets.Finite

open Idealize.ShloMosaic Idealize.SL.Sem

/-- Under the precondition, on every device, the three arrays the equivalence needs real have real entries. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j k, ∃ r : ℝ, Spec.mat (a := 320000) (b := 128) (α := EReal)
        (m ((c.tc : Thread Cert.KernelIdeal.nD Cert.KernelIdeal.τ).loc Cert.KernelIdeal.main_arg0)) j k = (r : EReal))
    ∧ (∀ k d, ∃ r : ℝ, Spec.mat (a := 128) (b := 256) (α := EReal)
        (m ((c.tc : Thread Cert.KernelIdeal.nD Cert.KernelIdeal.τ).loc Cert.KernelIdeal.main_arg2)) k d = (r : EReal))
    ∧ (∀ d, ∃ r : ℝ, Spec.vec (a := 256) (α := EReal)
        (m ((c.tc : Thread Cert.KernelIdeal.nD Cert.KernelIdeal.τ).loc Cert.KernelIdeal.main_arg3)) d = (r : EReal)) := by
  obtain ⟨h0, h2, h3, -⟩ := real_of_pre _ _ _ _ _ _ _ _ (hpre c)
  exact ⟨fun j k => h0 _, fun k d => h2 _, fun d => h3 _⟩

end Cert.DeepSets.Finite

end
-- ==== Proof.lean ====
/-
  The certificate's five claims, assembled.

  Both idealized programs compute, from the same arguments, a 64-by-128 array. The reference's is, entry by entry, the
  quotient form: gated rows pooled per graph, centred, divided by the square root of the shifted variance, scaled,
  shifted and projected. The kernel's is the reciprocal form over the tile-by-tile pooled rows, with halved weights and
  the hyperbolic tangent in the gate. Every float argument being finite, the linear layer, the gate and the pooled rows
  are real numbers; on real numbers halving the weights halves the linear layer, half of `a · (1 + tanh (g / 2))` is
  `a` times the logistic function of `g`, a one-hot factor selects exactly the edges of its graph, fifty tiles of 6400
  edges are all the edges, and multiplying by the reciprocal square root of a positive number is dividing by its square
  root: the two arrays are equal. The three frames are the programs' runs with the result dropped; the idealized kernel
  is the printed kernel read at the exact instance with no rewrite, so there is nothing to preserve.
-/
import proofs.«152796_g7069516169370_cont_9to1c4b_214_5_alg».proof.Defs
import proofs.«152796_g7069516169370_cont_9to1c4b_214_5_alg».proof.Proof.Gen.Kernel
import proofs.«152796_g7069516169370_cont_9to1c4b_214_5_alg».proof.Proof.Gen.Kernel.Skeleton
import proofs.«152796_g7069516169370_cont_9to1c4b_214_5_alg».proof.Proof.Gen.Kernel.Launch
import proofs.«152796_g7069516169370_cont_9to1c4b_214_5_alg».proof.Proof.Gen.Kernel.Points
import proofs.«152796_g7069516169370_cont_9to1c4b_214_5_alg».proof.Proof.Gen.Kernel.Frame
import proofs.«152796_g7069516169370_cont_9to1c4b_214_5_alg».proof.Proof.Gen.KernelIdeal
import proofs.«152796_g7069516169370_cont_9to1c4b_214_5_alg».proof.Proof.Gen.KernelIdeal.Skeleton
import proofs.«152796_g7069516169370_cont_9to1c4b_214_5_alg».proof.Proof.Gen.KernelIdeal.Launch
import proofs.«152796_g7069516169370_cont_9to1c4b_214_5_alg».proof.Proof.Gen.KernelIdeal.Points
import proofs.«152796_g7069516169370_cont_9to1c4b_214_5_alg».proof.Proof.Gen.KernelIdeal.Frame
import proofs.«152796_g7069516169370_cont_9to1c4b_214_5_alg».proof.Proof.Gen.KernelIdeal.Value
import proofs.«152796_g7069516169370_cont_9to1c4b_214_5_alg».proof.Proof.Gen.ReferenceIdeal
import proofs.«152796_g7069516169370_cont_9to1c4b_214_5_alg».proof.Proof.Gen.Pre_finite_inputs
import proofs.«152796_g7069516169370_cont_9to1c4b_214_5_alg».proof.Proof.KRun
import proofs.«152796_g7069516169370_cont_9to1c4b_214_5_alg».proof.Proof.RefResult
import proofs.«152796_g7069516169370_cont_9to1c4b_214_5_alg».proof.Proof.Algebra
import proofs.«152796_g7069516169370_cont_9to1c4b_214_5_alg».proof.Proof.FiniteArgs
import Idealize.ShloMosaic.Adequacy
import Idealize.ShloMosaic.Init

noncomputable section

namespace Cert.Proof

open Idealize.ShloMosaic Idealize.ShloMosaic.TcCoe Idealize.SL.Sem
open Cert.DeepSets

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.DeepSets.Ref.run m ρ)

theorem preserves : Cert.preserves_Kernel_KernelIdeal := trivial

/-- From arguments that agree and are finite, the two result arrays are the same function of them. -/
theorem algebraic : Cert.algebraic_KernelIdeal_ReferenceIdeal := by
  intro m ρ m' ρ' hpre hagree
  refine ⟨fun c => Cert.DeepSets.Kernel.G m c, Cert.DeepSets.Kernel.run m ρ, ?_⟩
  refine (θ_run Cert.ReferenceIdeal.defs _ _).mono (fun _ h c => ⟨(h c).1.trans ?_, (h c).2⟩) (Cert.DeepSets.Ref.run m' ρ')
  obtain ⟨a0, a1, a2, a3, a4, a5, a6, a7⟩ := hagree c
  rw [a0, a1, a2, a3, a4, a5, a6, a7]
  obtain ⟨hfeat, hW1, hb1⟩ := Cert.DeepSets.Finite.real_args m hpre c
  exact congrArg Spec.arr2 (Cert.DeepSets.Algebra.out_eq hfeat hW1 hb1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
